-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x512 : Shape := ⟨3, ![32, 256, 512]⟩
abbrev S20x512 : Shape := ⟨2, ![20, 512]⟩
abbrev S_ : Shape := ⟨0, ![]⟩

class Facts : Prop where
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S20x512 : S_.BroadcastsInDim S20x512 (![] : Fin 0 → Fin S20x512.rank)
  reducesTo_S20x512_S_d0_1 : S20x512.ReducesTo [0, 1] S_

variable [Facts]

def fn {F : FTy → Type} [FloatOps F] (main_arg0 : FVec F S32x256x512 .f32) (main_arg1 : FVec F S32x256x512 .f32) (main_arg2 : FVec F S20x512 .f32) : IVec S_ 1 :=
  let main_v0 : FVec F S32x256x512 .f32 := Host.absf main_arg0
  let main_cst : FVec F S_ .f32 := constant S_ .f32 0x7F800000#32
  let main_v1 : FVec F S32x256x512 .f32 := broadcastInDim S32x256x512 ![] bcast_S_S32x256x512 main_cst
  let main_v2 : IVec S32x256x512 1 := cmpf .olt main_v0 main_v1
  let main_c : IVec S_ 1 := constantI S_ 1 1#1
  let main_v3 : IVec S_ 1 := (fun x v => Host.reduce IntOp.andi x v reducesTo_S32x256x512_S_d0_1_2 h_S_) main_v2 main_c
  let main_v4 : FVec F S32x256x512 .f32 := Host.absf main_arg1
  let main_cst_0 : FVec F S_ .f32 := constant S_ .f32 0x7F800000#32
  let main_v5 : FVec F S32x256x512 .f32 := broadcastInDim S32x256x512 ![] bcast_S_S32x256x512 main_cst_0
  let main_v6 : IVec S32x256x512 1 := cmpf .olt main_v4 main_v5
  let main_c_1 : IVec S_ 1 := constantI S_ 1 1#1
  let main_v7 : IVec S_ 1 := (fun x v => Host.reduce IntOp.andi x v reducesTo_S32x256x512_S_d0_1_2 h_S_) main_v6 main_c_1
  let main_v8 : IVec S_ 1 := andi main_v3 main_v7
  let main_v9 : FVec F S20x512 .f32 := Host.absf main_arg2
  let main_cst_2 : FVec F S_ .f32 := constant S_ .f32 0x7F800000#32
  let main_v10 : FVec F S20x512 .f32 := broadcastInDim S20x512 ![] bcast_S_S20x512 main_cst_2
  let main_v11 : IVec S20x512 1 := cmpf .olt main_v9 main_v10
  let main_c_3 : IVec S_ 1 := constantI S_ 1 1#1
  let main_v12 : IVec S_ 1 := (fun x v => Host.reduce IntOp.andi x v reducesTo_S20x512_S_d0_1 h_S_) main_v11 main_c_3
  let main_v13 : IVec S_ 1 := andi main_v8 main_v12
  main_v13
-- ==== Kernel.lean ====
abbrev S32x256x512 : Shape := ⟨3, ![32, 256, 512]⟩
abbrev S20x512 : Shape := ⟨2, ![20, 512]⟩
abbrev S32x256x20 : Shape := ⟨3, ![32, 256, 20]⟩
abbrev S2x256x512 : Shape := ⟨3, ![2, 256, 512]⟩
abbrev S2x256x20 : Shape := ⟨3, ![2, 256, 20]⟩
abbrev S2x256 : Shape := ⟨2, ![2, 256]⟩
abbrev S2x256x1 : Shape := ⟨3, ![2, 256, 1]⟩
abbrev S2x512x512 : Shape := ⟨3, ![2, 512, 512]⟩
abbrev S2x512 : Shape := ⟨2, ![2, 512]⟩
abbrev S2x1x512 : Shape := ⟨3, ![2, 1, 512]⟩
abbrev S512x512 : Shape := ⟨2, ![512, 512]⟩
abbrev S1536x512 : Shape := ⟨2, ![1536, 512]⟩
abbrev S1536x20 : Shape := ⟨2, ![1536, 20]⟩
abbrev S512x20 : Shape := ⟨2, ![512, 20]⟩

abbrev nBuf : Space → Nat
  | .hbm => 4
  | .vmem => 7
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S20x512, .f32⟩
  | .hbm, ⟨3, _⟩ => ⟨S32x256x20, .f32⟩
  | .local _ .vmem, ⟨0, _⟩ => ⟨S2x256x512, .f32⟩
  | .local _ .vmem, ⟨1, _⟩ => ⟨S2x256x512, .f32⟩
  | .local _ .vmem, ⟨2, _⟩ => ⟨S2x256x512, .f32⟩
  | .local _ .vmem, ⟨3, _⟩ => ⟨S2x256x512, .f32⟩
  | .local _ .vmem, ⟨4, _⟩ => ⟨S20x512, .f32⟩
  | .local _ .vmem, ⟨5, _⟩ => ⟨S2x256x20, .f32⟩
  | .local _ .vmem, ⟨6, _⟩ => ⟨S2x256x20, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2x256x512_S2x256x512_0_0_0 : ∀ a, (![0, 0, 0] : Fin 3 → Nat) a + S2x256x512.size a ≤ S2x256x512.size a
  h_S2x256x512 : 0 < S2x256x512.numel
  inb_S20x512_S20x512_0_0 : ∀ a, (![0, 0] : Fin 2 → Nat) a + S20x512.size a ≤ S20x512.size a
  h_S20x512 : 0 < S20x512.numel
  reduces_S2x256x512_S2x256 : S2x256x512.Reduces [2] S2x256
  shapeCasts_S2x256_S2x256x1 : S2x256.ShapeCasts S2x256x1
  broadcasts_S2x256x1_S2x256x512 : S2x256x1.Broadcasts S2x256x512
  bitsLt_bf16_f32 : FTy.bits .bf16 < FTy.bits .f32
  reduces_S2x512x512_S2x512 : S2x512x512.Reduces [1] S2x512
  shapeCasts_S2x512_S2x1x512 : S2x512.ShapeCasts S2x1x512
  broadcasts_S2x1x512_S2x512x512 : S2x1x512.Broadcasts S2x512x512
  shapeCasts_S2x256x512_S512x512 : S2x256x512.ShapeCasts S512x512
  concatenates_S512x512_S512x512_S512x512_S1536x512_d0 : Shape.Concatenates [S512x512, S512x512, S512x512] S1536x512 0
  slices_S1536x20_o0_0_S512x20 : S1536x20.Slices ![0, 0] S512x20
  shapeCasts_S512x20_S2x256x20 : S512x20.ShapeCasts S2x256x20
  slices_S1536x20_o512_0_S512x20 : S1536x20.Slices ![512, 0] S512x20
  slices_S1536x20_o1024_0_S512x20 : S1536x20.Slices ![1024, 0] S512x20
  inb_S2x256x20_S2x256x20_0_0_0 : ∀ a, (![0, 0, 0] : Fin 3 → Nat) a + S2x256x20.size a ≤ S2x256x20.size a
  h_S2x256x20 : 0 < S2x256x20.numel
  dot_S2x256x512_S2x256x512_S2x512x512_1_1_2_2_0_0_wf : DotDims.WF S2x256x512 S2x256x512 S2x512x512 [1] [1] [2] [2] [0] [0]
  dot_S2x256x512_S2x512x512_S2x256x512_2_1_1_2_0_0_wf : DotDims.WF S2x256x512 S2x512x512 S2x256x512 [2] [1] [1] [2] [0] [0]
  dot_S1536x512_S20x512_S1536x20_1_1_0_0_n_n_wf : DotDims.WF S1536x512 S20x512 S1536x20 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x512.size a ≤ S32x256x512.size a
  hwx0_0 : ∀ i : grid0.Coords, EltTy.bits .f32 = 32 ∨ (Rect.block (s := S32x256x512) S2x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x512.size a ≤ S32x256x512.size a
  hwx0_1 : ∀ i : grid0.Coords, EltTy.bits .f32 = 32 ∨ (Rect.block (s := S32x256x512) S2x256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x512.size a ≤ S20x512.size a
  hwx0_2 : ∀ i : grid0.Coords, EltTy.bits .f32 = 32 ∨ (Rect.block (s := S20x512) S20x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x256x20.size a ≤ S32x256x20.size a
  hwx0_3 : ∀ i : grid0.Coords, EltTy.bits .f32 = 32 ∨ (Rect.block (s := S32x256x20) S2x256x20.size (cc0_transform_3 i) (hinb0_3 i)).WholeWords (EltTy.packing .f32)

variable [Facts₀]

def dot_S2x256x512_S2x256x512_S2x512x512_1_1_2_2_0_0 : DotDims S2x256x512 S2x256x512 S2x512x512 where
  lhsContracting := [1]
  rhsContracting := [1]
  lhsNonContracting := [2]
  rhsNonContracting := [2]
  lhsBatch := [0]
  rhsBatch := [0]
  wf := dot_S2x256x512_S2x256x512_S2x512x512_1_1_2_2_0_0_wf
def dot_S2x256x512_S2x512x512_S2x256x512_2_1_1_2_0_0 : DotDims S2x256x512 S2x512x512 S2x256x512 where
  lhsContracting := [2]
  rhsContracting := [1]
  lhsNonContracting := [1]
  rhsNonContracting := [2]
  lhsBatch := [0]
  rhsBatch := [0]
  wf := dot_S2x256x512_S2x512x512_S2x256x512_2_1_1_2_0_0_wf
def dot_S1536x512_S20x512_S1536x20_1_1_0_0_n_n : DotDims S1536x512 S20x512 S1536x20 where
  lhsContracting := [1]
  rhsContracting := [1]
  lhsNonContracting := [0]
  rhsNonContracting := [0]
  lhsBatch := []
  rhsBatch := []
  wf := dot_S1536x512_S20x512_S1536x20_1_1_0_0_n_n_wf

abbrev win0_0 : Pipeline.Window sig grid0 :=
  Pipeline.Window.ofSpec (Memref.whole main_arg0) S2x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S20x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x256x20.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x512 : Shape := ⟨3, ![32, 256, 512]⟩
abbrev S20x512 : Shape := ⟨2, ![20, 512]⟩
abbrev S_ : Shape := ⟨0, ![]⟩
abbrev S32x256 : Shape := ⟨2, ![32, 256]⟩
abbrev S32x256x1 : Shape := ⟨3, ![32, 256, 1]⟩
abbrev S32x512x512 : Shape := ⟨3, ![32, 512, 512]⟩
abbrev S32x512 : Shape := ⟨2, ![32, 512]⟩
abbrev S32x1x512 : Shape := ⟨3, ![32, 1, 512]⟩
abbrev S32x256x1x512 : Shape := ⟨4, ![32, 256, 1, 512]⟩
abbrev S1x1x20x512 : Shape := ⟨4, ![1, 1, 20, 512]⟩
abbrev S32x256x20x512 : Shape := ⟨4, ![32, 256, 20, 512]⟩
abbrev S32x256x20 : Shape := ⟨3, ![32, 256, 20]⟩
abbrev S32x256x20x1 : Shape := ⟨4, ![32, 256, 20, 1]⟩

abbrev nBuf : Space → Nat
  | .hbm => 68
  | .vmem => 0
  | .smem => 0
  | _ => 0

abbrev bufTy : (tb : Table) → Fin (tcTables nBuf tb) → BufTy
  | .hbm, ⟨0, _⟩ => ⟨S32x256x512, .f32⟩
  | .hbm, ⟨1, _⟩ => ⟨S32x256x512, .f32⟩
  | .hbm, ⟨2, _⟩ => ⟨S20x512, .f32⟩
  | .hbm, ⟨3, _⟩ => ⟨S32x256x512, .f32⟩
  | .hbm, ⟨4, _⟩ => ⟨S_, .f32⟩
  | .hbm, ⟨5, _⟩ => ⟨S32x256, .f32⟩
  | .hbm, ⟨6, _⟩ => ⟨S32x256x1, .f32⟩
  | .hbm, ⟨7, _⟩ => ⟨S_, .f32⟩
  | .hbm, ⟨8, _⟩ => ⟨S32x256x1, .f32⟩
  | .hbm, ⟨9, _⟩ => ⟨S32x256x1, .f32⟩
  | .hbm, ⟨10, _⟩ => ⟨S32x256x1, .f32⟩
  | .hbm, ⟨11, _⟩ => ⟨S32x256x512, .f32⟩
  | .hbm, ⟨12, _⟩ => ⟨S32x256x512, .f32⟩
  | .hbm, ⟨13, _⟩ => ⟨S32x256x512, .f32⟩
  | .hbm, ⟨14, _⟩ => ⟨S_, .f32⟩
  | .hbm, ⟨15, _⟩ => ⟨S32x256, .f32⟩
  | .hbm, ⟨16, _⟩ => ⟨S32x256x1, .f32⟩
  | .hbm, ⟨17, _⟩ => ⟨S_, .f32⟩
  | .hbm, ⟨18, _⟩ => ⟨S32x256x1, .f32⟩
  | .hbm, ⟨19, _⟩ => ⟨S32x256x1, .f32⟩
  | .hbm, ⟨20, _⟩ => ⟨S32x256x1, .f32⟩
  | .hbm, ⟨21, _⟩ => ⟨S32x256x512, .f32⟩
  | .hbm, ⟨22, _⟩ => ⟨S32x256x512, .f32⟩
  | .hbm, ⟨23, _⟩ => ⟨S32x512x512, .f32⟩
  | .hbm, ⟨24, _⟩ => ⟨S32x512x512, .f32⟩
  | .hbm, ⟨25, _⟩ => ⟨S_, .f32⟩
  | .hbm, ⟨26, _⟩ => ⟨S32x512, .f32⟩
  | .hbm, ⟨27, _⟩ => ⟨S32x1x512, .f32⟩
  | .hbm, ⟨28, _⟩ => ⟨S_, .f32⟩
  | .hbm, ⟨29, _⟩ => ⟨S32x1x512, .f32⟩
  | .hbm, ⟨30, _⟩ => ⟨S32x1x512, .f32⟩
  | .hbm, ⟨31, _⟩ => ⟨S32x1x512, .f32⟩
  | .hbm, ⟨32, _⟩ => ⟨S32x512x512, .f32⟩
  | .hbm, ⟨33, _⟩ => ⟨S32x512x512, .f32⟩
  | .hbm, ⟨34, _⟩ => ⟨S32x256x512, .f32⟩
  | .hbm, ⟨35, _⟩ => ⟨S32x256x1x512, .f32⟩
  | .hbm, ⟨36, _⟩ => ⟨S1x1x20x512, .f32⟩
  | .hbm, ⟨37, _⟩ => ⟨S32x256x20x512, .f32⟩
  | .hbm, ⟨38, _⟩ => ⟨S32x256x20x512, .f32⟩
  | .hbm, ⟨39, _⟩ => ⟨S32x256x20x512, .f32⟩
  | .hbm, ⟨40, _⟩ => ⟨S32x256x20x512, .f32⟩
  | .hbm, ⟨41, _⟩ => ⟨S_, .f32⟩
  | .hbm, ⟨42, _⟩ => ⟨S32x256x20, .f32⟩
  | .hbm, ⟨43, _⟩ => ⟨S32x256x20x1, .f32⟩
  | .hbm, ⟨44, _⟩ => ⟨S_, .f32⟩
  | .hbm, ⟨45, _⟩ => ⟨S32x256x20x1, .f32⟩
  | .hbm, ⟨46, _⟩ => ⟨S32x256x20x1, .f32⟩
  | .hbm, ⟨47, _⟩ => ⟨S32x256x20x1, .f32⟩
  | .hbm, ⟨48, _⟩ => ⟨S32x256x20x512, .f32⟩
  | .hbm, ⟨49, _⟩ => ⟨S32x256x20x512, .f32⟩
  | .hbm, ⟨50, _⟩ => ⟨S32x256x1x512, .f32⟩
  | .hbm, ⟨51, _⟩ => ⟨S1x1x20x512, .f32⟩
  | .hbm, ⟨52, _⟩ => ⟨S32x256x20x512, .f32⟩
  | .hbm, ⟨53, _⟩ => ⟨S32x256x20x512, .f32⟩
  | .hbm, ⟨54, _⟩ => ⟨S32x256x20x512, .f32⟩
  | .hbm, ⟨55, _⟩ => ⟨S32x256x20x512, .f32⟩
  | .hbm, ⟨56, _⟩ => ⟨S_, .f32⟩
  | .hbm, ⟨57, _⟩ => ⟨S32x256x20, .f32⟩
  | .hbm, ⟨58, _⟩ => ⟨S32x256x20x1, .f32⟩
  | .hbm, ⟨59, _⟩ => ⟨S_, .f32⟩
  | .hbm, ⟨60, _⟩ => ⟨S32x256x20x1, .f32⟩
  | .hbm, ⟨61, _⟩ => ⟨S32x256x20x1, .f32⟩
  | .hbm, ⟨62, _⟩ => ⟨S32x256x20x1, .f32⟩
  | .hbm, ⟨63, _⟩ => ⟨S32x256x20x512, .f32⟩
  | .hbm, ⟨64, _⟩ => ⟨S32x256x20x512, .f32⟩
  | .hbm, ⟨65, _⟩ => ⟨S32x256x20x512, .f32⟩
  | .hbm, ⟨66, _⟩ => ⟨S_, .f32⟩
  | .hbm, ⟨67, _⟩ => ⟨S32x256x20, .f32⟩
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩

abbrev nD : Nat := 1
abbrev τ : Topo := Topo.v7x

variable {F : FTy → Type} [FloatOps F]

class Facts₀ : Prop where
  reducesTo_S32x256x512_S32x256_d2 : S32x256x512.ReducesTo [2] S32x256
  h_S_ : 0 < S_.numel
  bcast_S32x256_S32x256x1_0_1 : S32x256.BroadcastsInDim S32x256x1 (![0, 1] : Fin 2 → Fin S32x256x1.rank)
  bcast_S_S32x256x1 : S_.BroadcastsInDim S32x256x1 (![] : Fin 0 → Fin S32x256x1.rank)
  bcast_S32x256x1_S32x256x512_0_1_2 : S32x256x1.BroadcastsInDim S32x256x512 (![0, 1, 2] : Fin 3 → Fin S32x256x512.rank)
  reducesTo_S32x512x512_S32x512_d1 : S32x512x512.ReducesTo [1] S32x512
  bcast_S32x512_S32x1x512_0_2 : S32x512.BroadcastsInDim S32x1x512 (![0, 2] : Fin 2 → Fin S32x1x512.rank)
  bcast_S_S32x1x512 : S_.BroadcastsInDim S32x1x512 (![] : Fin 0 → Fin S32x1x512.rank)
  bcast_S32x1x512_S32x512x512_0_1_2 : S32x1x512.BroadcastsInDim S32x512x512 (![0, 1, 2] : Fin 3 → Fin S32x512x512.rank)
  bcast_S32x256x512_S32x256x1x512_0_1_3 : S32x256x512.BroadcastsInDim S32x256x1x512 (![0, 1, 3] : Fin 3 → Fin S32x256x1x512.rank)
  bcast_S20x512_S1x1x20x512_2_3 : S20x512.BroadcastsInDim S1x1x20x512 (![2, 3] : Fin 2 → Fin S1x1x20x512.rank)
  bcast_S32x256x1x512_S32x256x20x512_0_1_2_3 : S32x256x1x512.BroadcastsInDim S32x256x20x512 (![0, 1, 2, 3] : Fin 4 → Fin S32x256x20x512.rank)
  bcast_S1x1x20x512_S32x256x20x512_0_1_2_3 : S1x1x20x512.BroadcastsInDim S32x256x20x512 (![0, 1, 2, 3] : Fin 4 → Fin S32x256x20x512.rank)
  reducesTo_S32x256x20x512_S32x256x20_d3 : S32x256x20x512.ReducesTo [3] S32x256x20
  bcast_S32x256x20_S32x256x20x1_0_1_2 : S32x256x20.BroadcastsInDim S32x256x20x1 (![0, 1, 2] : Fin 3 → Fin S32x256x20x1.rank)
  bcast_S_S32x256x20x1 : S_.BroadcastsInDim S32x256x20x1 (![] : Fin 0 → Fin S32x256x20x1.rank)
  bcast_S32x256x20x1_S32x256x20x512_0_1_2_3 : S32x256x20x1.BroadcastsInDim S32x256x20x512 (![0, 1, 2, 3] : Fin 4 → Fin S32x256x20x512.rank)
  dot_S32x256x512_S32x256x512_S32x512x512_1_1_2_2_0_0_wf : DotDims.WF S32x256x512 S32x256x512 S32x512x512 [1] [1] [2] [2] [0] [0]
  dot_S32x256x512_S32x512x512_S32x256x512_2_1_1_2_0_0_wf : DotDims.WF S32x256x512 S32x512x512 S32x256x512 [2] [1] [1] [2] [0] [0]

variable [Facts₀]

def dot_S32x256x512_S32x256x512_S32x512x512_1_1_2_2_0_0 : DotDims S32x256x512 S32x256x512 S32x512x512 where
  lhsContracting := [1]
  rhsContracting := [1]
  lhsNonContracting := [2]
  rhsNonContracting := [2]
  lhsBatch := [0]
  rhsBatch := [0]
  wf := dot_S32x256x512_S32x256x512_S32x512x512_1_1_2_2_0_0_wf
def dot_S32x256x512_S32x512x512_S32x256x512_2_1_1_2_0_0 : DotDims S32x256x512 S32x512x512 S32x256x512 where
  lhsContracting := [2]
  rhsContracting := [1]
  lhsNonContracting := [1]
  rhsNonContracting := [2]
  lhsBatch := [0]
  rhsBatch := [0]
  wf := dot_S32x256x512_S32x512x512_S32x256x512_2_1_1_2_0_0_wf

class Facts : Prop extends Facts₀ where

variable [Facts]
-- ==== Proof.LibClampNorm.lean ====
/-
  Normalising by a root clamped below by a positive constant, on the extended reals.

  For a positive real `eps` and ANY extended real `s`, the clamped value `max s eps` is a positive real or `+∞`.
  At both, the quotient of any `x` by `sqrt (max s eps)` is the product of `x` with `rsqrt (max s eps)`, and that
  inverse root is a nonnegative real — so it distributes over a finite sum of extended reals. These are the facts that
  join an `x * rsqrt (max (Σ x²) eps)` normalisation to an `x / sqrt (max (Σ x²) eps)` one with no finiteness
  assumption on `x`. The single-precision constant nearest `1e-12` is such an `eps`.
-/
import Idealize.ShloMosaic.PureOps.Ideal
import Idealize.ShloMosaic.PureOps.Ideal.Laws

noncomputable section

namespace Cert.LibClampNorm

open Idealize.ShloMosaic

/-- A value clamped below by a positive real is a positive real or `+∞`. -/
theorem clamp_cases {eps : EReal} (heps : ∃ e : ℝ, 0 < e ∧ eps = (e : EReal)) (s : EReal) :
    max s eps = ⊤ ∨ ∃ r : ℝ, 0 < r ∧ max s eps = (r : EReal) := by
  obtain ⟨e, he, hE⟩ := heps
  have hle : (e : EReal) ≤ max s eps := hE ▸ le_max_right s eps
  generalize max s eps = M at hle
  induction M using EReal.rec with
  | bot => exact absurd (le_bot_iff.1 hle) (EReal.coe_ne_bot e)
  | coe r => exact Or.inr ⟨r, lt_of_lt_of_le he (EReal.coe_le_coe_iff.1 hle), rfl⟩
  | top => exact Or.inl rfl

/-- The quotient by the root of a clamped value is the product with its inverse root, for every numerator and every
    value clamped. -/
theorem div_sqrt_clamp {eps : EReal} (heps : ∃ e : ℝ, 0 < e ∧ eps = (e : EReal)) (x s : EReal) :
    Ideal.div x (Ideal.sqrt (max s eps)) = x * Ideal.rsqrt (max s eps) := by
  rcases clamp_cases heps s with h | ⟨r, hr, h⟩
  · rw [h, Ideal.sqrt_top, Ideal.rsqrt_top, Ideal.div, if_neg (by simp), EReal.inv_top]
  · have hs : 0 < Real.sqrt r := Real.sqrt_pos.2 hr
    rw [h, Ideal.sqrt_coe, Ideal.rsqrt_coe, if_neg (not_lt.2 hr.le), if_neg (not_lt.2 hr.le), if_neg hr.ne']
    rw [Ideal.div, if_neg (by exact_mod_cast hs.ne'), EReal.coe_inv]

/-- The inverse root of a clamped value is a nonnegative real. -/
theorem rsqrt_clamp_real {eps : EReal} (heps : ∃ e : ℝ, 0 < e ∧ eps = (e : EReal)) (s : EReal) :
    ∃ c : ℝ, 0 ≤ c ∧ Ideal.rsqrt (max s eps) = (c : EReal) := by
  rcases clamp_cases heps s with h | ⟨r, hr, h⟩
  · exact ⟨0, le_refl 0, by rw [h, Ideal.rsqrt_top]; rfl⟩
  · refine ⟨(Real.sqrt r)⁻¹, inv_nonneg.2 (Real.sqrt_nonneg r), ?_⟩
    rw [h, Ideal.rsqrt_coe, if_neg (not_lt.2 hr.le), if_neg hr.ne']

/-- A nonnegative real factor distributes over a finite sum of extended reals. -/
theorem sum_mul_coe {ι : Type} (s : Finset ι) (f : ι → EReal) (c : ℝ) (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The single-precision number nearest `1e-12` is the positive real `9223372 · 2⁻⁶³`. -/
theorem f32_1e12_pos : ∃ e : ℝ, 0 < e ∧ Ideal.ofBits .f32 0x2B8CBCCC#32 = (e : EReal) := by
  refine ⟨(9223372 : ℝ) * (2:ℝ) ^ (-63 : ℤ), by positivity, ?_⟩
  simp [Ideal.ofBits, Ideal.ieee]

end Cert.LibClampNorm

end
-- ==== Proof.Clamp.lean ====
/-
  The clamped inverse norm of this kernel.

  Both programs normalise a vector by the root of its sum of squares clamped below by one positive constant `eps`:
  one multiplies by `rsqrt (max s eps)`, the other divides by `sqrt (max s eps)`. Because `eps` is a positive real,
  `max s eps` is a positive real or `+∞` whatever `s` is, and at both the quotient by the root is the product with
  the inverse root; that inverse root is a nonnegative real, so it may be pulled out of a finite sum.
-/
import proofs.«119424_j69939247448444_2_alg».proof.Proof.LibClampNorm

noncomputable section

namespace Cert.Attn

open Idealize.ShloMosaic

/-- The clamp: the single-precision number nearest `1e-12`, read exactly. -/
def eps : EReal := Ideal.ofBits .f32 0x2B8CBCCC#32

/-- The inverse root of a sum of squares clamped below by `eps`. -/
def rs (s : EReal) : EReal := Ideal.rsqrt (max s eps)

/-- The clamp is a positive real. -/
theorem eps_real : ∃ e : ℝ, 0 < e ∧ eps = (e : EReal) := Cert.LibClampNorm.f32_1e12_pos

/-- The quotient by the root of a clamped value is the product with its inverse root, for EVERY numerator and every
    value clamped. -/
theorem div_sqrt_clamp (x s : EReal) : Ideal.div x (Ideal.sqrt (max s eps)) = x * rs s :=
  Cert.LibClampNorm.div_sqrt_clamp eps_real x s

/-- The inverse root of a clamped value is a nonnegative real. -/
theorem rs_real (s : EReal) : ∃ c : ℝ, 0 ≤ c ∧ rs s = (c : EReal) :=
  Cert.LibClampNorm.rsqrt_clamp_real eps_real s

/-- A nonnegative real factor distributes over a finite sum of extended reals. -/
theorem sum_mul_coe {ι : Type} (s : Finset ι) (f : ι → EReal) (c : ℝ) (hc : 0 ≤ c) :
    (∑ k ∈ s, f k) * (c : EReal) = ∑ k ∈ s, f k * (c : EReal) :=
  Cert.LibClampNorm.sum_mul_coe s f c hc

end Cert.Attn

end
-- ==== Proof.Spec.lean ====
/-
  The function both programs compute, for ONE batch entry, over coordinates.

  From two `256 × 512` matrices `a`, `b` (rows `t`, features `d`) and a `20 × 512` weight matrix `w`:
  the rows of `a` and `b` are normalised (`rown`); `alpha d e = Σ_t b̂ t d · â t e`; its columns are normalised over
  `d` (`alphan`); `hmean t e = Σ_d b̂ t d · alphan d e`; and for each weight row `p` the result is the cosine of
  `a t · w p` and `hmean t · w p` (elementwise products), every norm clamped below by `eps`.

  `persp` takes the cosine as three contractions against `w p ∘ w p` — the numerator `Σ_d (a·h)(w·w)` and the two
  squared norms `Σ_d (a·a)(w·w)`, `Σ_d (h·h)(w·w)` — and multiplies the numerator by the two inverse roots.
  `perspRef` normalises the two weighted vectors first and then sums their products over `d`.
  They agree on all extended reals: the products regroup by commutativity and associativity alone, and the two inverse
  roots are nonnegative reals, which distribute over the sum.
-/
import proofs.«119424_j69939247448444_2_alg».proof.Proof.Clamp
import Idealize.ShloMosaic.Lib.ValueIdx

noncomputable section

namespace Cert.Attn

/-- A row of `x` times the inverse root of its clamped sum of squares. -/
def rown (x : Fin 256 → Fin 512 → EReal) (t : Fin 256) (d : Fin 512) : EReal :=
  x t d * rs (∑ k : Fin 512, x t k * x t k)

/-- `Σ_t b̂ t d · â t e`. -/
def alpha (a b : Fin 256 → Fin 512 → EReal) (d e : Fin 512) : EReal :=
  ∑ t : Fin 256, rown b t d * rown a t e

/-- `alpha` with each column `e` normalised over `d`. -/
def alphan (a b : Fin 256 → Fin 512 → EReal) (d e : Fin 512) : EReal :=
  alpha a b d e * rs (∑ k : Fin 512, alpha a b k e * alpha a b k e)

/-- `Σ_d b̂ t d · alphan d e`. -/
def hmean (a b : Fin 256 → Fin 512 → EReal) (t : Fin 256) (e : Fin 512) : EReal :=
  ∑ d : Fin 512, rown b t d * alphan a b d e

/-- The weighted cosine of two rows from three contractions against the squared weights. -/
def cos3 (x h : Fin 512 → EReal) (w : Fin 512 → EReal) : EReal :=
  (∑ d : Fin 512, (x d * h d) * (w d * w d)) * rs (∑ d : Fin 512, (x d * x d) * (w d * w d))
    * rs (∑ d : Fin 512, (h d * h d) * (w d * w d))

/-- The weighted cosine of two rows as the sum of the products of the two normalised weighted rows. -/
def cosN (x h : Fin 512 → EReal) (w : Fin 512 → EReal) : EReal :=
  ∑ d : Fin 512, ((x d * w d) * rs (∑ k : Fin 512, (x k * w k) * (x k * w k)))
    * ((h d * w d) * rs (∑ k : Fin 512, (h k * w k) * (h k * w k)))

/-- The two forms of the weighted cosine agree on all extended reals. -/
theorem cosN_eq_cos3 (x h w : Fin 512 → EReal) : cosN x h w = cos3 x h w := by
  unfold cosN cos3
  have ex : (∑ k : Fin 512, (x k * w k) * (x k * w k)) = ∑ d : Fin 512, (x d * x d) * (w d * w d) :=
    Finset.sum_congr rfl fun k _ => mul_mul_mul_comm _ _ _ _
  have eh : (∑ k : Fin 512, (h k * w k) * (h k * w k)) = ∑ d : Fin 512, (h d * h d) * (w d * w d) :=
    Finset.sum_congr rfl fun k _ => mul_mul_mul_comm _ _ _ _
  rw [ex, eh]
  obtain ⟨cx, hcx, ecx⟩ := rs_real (∑ d : Fin 512, (x d * x d) * (w d * w d))
  obtain ⟨ch, hch, ech⟩ := rs_real (∑ d : Fin 512, (h d * h d) * (w d * w d))
  rw [ecx, ech, mul_assoc, ← EReal.coe_mul, sum_mul_coe _ _ _ (mul_nonneg hcx hch)]
  refine Finset.sum_congr rfl fun d _ => ?_
  rw [EReal.coe_mul, mul_mul_mul_comm, mul_mul_mul_comm (x d) (w d) (h d) (w d)]

/-- The result for one batch entry, the cosine taken from three contractions. -/
def persp (a b : Fin 256 → Fin 512 → EReal) (w : Fin 20 → Fin 512 → EReal) (t : Fin 256) (p : Fin 20) : EReal :=
  cos3 (a t) (hmean a b t) (w p)

/-- The result for one batch entry, the cosine taken from the two normalised weighted rows. -/
def perspRef (a b : Fin 256 → Fin 512 → EReal) (w : Fin 20 → Fin 512 → EReal) (t : Fin 256) (p : Fin 20) : EReal :=
  cosN (a t) (hmean a b t) (w p)

theorem perspRef_eq (a b : Fin 256 → Fin 512 → EReal) (w : Fin 20 → Fin 512 → EReal) (t : Fin 256) (p : Fin 20) :
    perspRef a b w t p = persp a b w t p := cosN_eq_cos3 _ _ _

/-! ## The whole arrays -/

open Idealize.ShloMosaic Idealize.ShloMosaic.ValueIdx

/-- Batch entry `β` of a `[32, 256, 512]` array, as a matrix. -/
def entA (x : (⟨3, ![32, 256, 512]⟩ : Shape).Idx → EReal) (β : Fin 32) : Fin 256 → Fin 512 → EReal :=
  fun t d => x (ix3 β t d)

/-- The `[20, 512]` weights, as a matrix. -/
def wmat (w : (⟨2, ![20, 512]⟩ : Shape).Idx → EReal) : Fin 20 → Fin 512 → EReal := fun p d => w (ix2 p d)

/-- The result array: entry `β`, row `t`, weight row `p` is `persp` of entry `β` of the two inputs. -/
def G (A B : (⟨3, ![32, 256, 512]⟩ : Shape).Idx → EReal) (W : (⟨2, ![20, 512]⟩ : Shape).Idx → EReal) :
    (⟨3, ![32, 256, 20]⟩ : Shape).Idx → EReal :=
  fun i => persp (entA A (i 0)) (entA B (i 0)) (wmat W) (i 1) (i 2)

theorem G_at (A B : (⟨3, ![32, 256, 512]⟩ : Shape).Idx → EReal) (W : (⟨2, ![20, 512]⟩ : Shape).Idx → EReal)
    (β : Fin 32) (t : Fin 256) (p : Fin 20) :
    G A B W (ix3 β t p) = persp (entA A β) (entA B β) (wmat W) t p := rfl

end Cert.Attn

end
-- ==== Proof.Layout.lean ====
/-
  The layout operations of one block, read at coordinates.

  A block holds two batch entries. Its intermediate values live in shapes `[2, 256, 512]`, `[2, 512, 512]` and their
  reductions; the last contraction runs on the two entries flattened to `512 = 2 · 256` rows and on three such
  matrices stacked to `1536` rows. Each lemma says which element of the operand an element of the result is, with
  every index written by its coordinates: entry `β`, row `t` of the flattened matrix is row `256 β + t`
  (`frow`), and piece `k` of the stack starts at row `512 k`.
-/
import Idealize.ShloMosaic.Lib.Pipeline.Value
import Idealize.ShloMosaic.Lib.ValueIdx
import Idealize.ShloMosaic.PureOps.Ideal.Laws

noncomputable section

namespace Cert.Attn

open Idealize.ShloMosaic Idealize.ShloMosaic.ValueIdx

variable {α : Type}

/-- Row `256 β + t` of the two entries' rows laid one after the other. -/
def frow (β : Fin 2) (t : Fin 256) : Fin 512 := ⟨256 * β.val + t.val, by omega⟩

/-- Row `o + r` of a stack of three `512`-row pieces, `o` the start of a piece. -/
def srow (o : Nat) (ho : o + 512 ≤ 1536) (r : Fin 512) : Fin 1536 := ⟨o + r.val, by omega⟩

/-! ## Unit axes added -/

/-- `[2, 256] → [2, 256, 1]`. -/
theorem cast_keep_last (v : (⟨2, ![2, 256]⟩ : Shape).Idx → α)
    (h : (⟨2, ![2, 256]⟩ : Shape).ShapeCasts ⟨3, ![2, 256, 1]⟩) (β : Fin 2) (t : Fin 256) (z : Fin 1) :
    shapeCast ⟨3, ![2, 256, 1]⟩ v h (ix3 β t z) = v (ix2 β t) :=
  shapeCast_apply v h _ _ (by
    have hz : z.val = 0 := by omega
    rw [Shape.rowMajor_val_two, Shape.rowMajor_val_three]
    show β.val * 256 + t.val = (β.val * 256 + t.val) * 1 + z.val
    omega)

/-- `[2, 512] → [2, 1, 512]`. -/
theorem cast_keep_mid (v : (⟨2, ![2, 512]⟩ : Shape).Idx → α)
    (h : (⟨2, ![2, 512]⟩ : Shape).ShapeCasts ⟨3, ![2, 1, 512]⟩) (β : Fin 2) (z : Fin 1) (e : Fin 512) :
    shapeCast ⟨3, ![2, 1, 512]⟩ v h (ix3 β z e) = v (ix2 β e) :=
  shapeCast_apply v h _ _ (by
    have hz : z.val = 0 := by omega
    rw [Shape.rowMajor_val_two, Shape.rowMajor_val_three]
    show β.val * 512 + e.val = (β.val * 1 + z.val) * 512 + e.val
    omega)

/-! ## Unit axes broadcast -/

/-- `[2, 256, 1] → [2, 256, 512]`: every feature of a row reads the row's one value. -/
theorem bcast_last (v : (⟨3, ![2, 256, 1]⟩ : Shape).Idx → α)
    (h : (⟨3, ![2, 256, 1]⟩ : Shape).Broadcasts ⟨3, ![2, 256, 512]⟩) (β : Fin 2) (t : Fin 256) (d : Fin 512) :
    broadcastTo ⟨3, ![2, 256, 512]⟩ v h (ix3 β t d) = v (ix3 β t (0 : Fin 1)) := by
  refine broadcastTo_apply v h (ix3 β t d) (ix3 β t (0 : Fin 1)) fun ax => ?_
  match ax with
  | ⟨0, _⟩ => show β.val = if (2 : Nat) = 1 then 0 else β.val; rw [if_neg (by decide)]
  | ⟨1, _⟩ => show t.val = if (256 : Nat) = 1 then 0 else t.val; rw [if_neg (by decide)]
  | ⟨2, _⟩ => show 0 = if (1 : Nat) = 1 then 0 else d.val; rw [if_pos rfl]

/-- `[2, 1, 512] → [2, 512, 512]`: every row of a column reads the column's one value. -/
theorem bcast_mid (v : (⟨3, ![2, 1, 512]⟩ : Shape).Idx → α)
    (h : (⟨3, ![2, 1, 512]⟩ : Shape).Broadcasts ⟨3, ![2, 512, 512]⟩) (β : Fin 2) (d e : Fin 512) :
    broadcastTo ⟨3, ![2, 512, 512]⟩ v h (ix3 β d e) = v (ix3 β (0 : Fin 1) e) := by
  refine broadcastTo_apply v h (ix3 β d e) (ix3 β (0 : Fin 1) e) fun ax => ?_
  match ax with
  | ⟨0, _⟩ => show β.val = if (2 : Nat) = 1 then 0 else β.val; rw [if_neg (by decide)]
  | ⟨1, _⟩ => show 0 = if (1 : Nat) = 1 then 0 else d.val; rw [if_pos rfl]
  | ⟨2, _⟩ => show e.val = if (512 : Nat) = 1 then 0 else e.val; rw [if_neg (by decide)]

/-! ## Sums along one axis -/

/-- The sum over the last axis of `[2, 256, 512]`. -/
theorem sum_last (v : FVec Ideal ⟨3, ![2, 256, 512]⟩ .f32)
    (h : (⟨3, ![2, 256, 512]⟩ : Shape).Reduces [2] ⟨2, ![2, 256]⟩) (hφ : FKind.Formats FTy.f32)
    (hacc : (0x00000000#32 : BitVec 32) = FKind.add.neutral FTy.f32 hφ) (β : Fin 2) (t : Fin 256) :
    multiReduction .add [2] ⟨2, ![2, 256]⟩ v 0x00000000#32 h hφ hacc (ix2 β t) = ∑ k : Fin 512, v (ix3 β t k) := by
  refine (Ideal.multiReduction_add_single v 0x00000000#32 h hφ hacc (ix2 β t)).trans ?_
  refine Finset.sum_congr rfl fun k _ => congrArg v (funext fun a => Fin.ext ?_)
  match a with
  | ⟨0, _⟩ => rfl
  | ⟨1, _⟩ => rfl
  | ⟨2, _⟩ => rfl

/-- The sum over the middle axis of `[2, 512, 512]`. -/
theorem sum_mid (v : FVec Ideal ⟨3, ![2, 512, 512]⟩ .f32)
    (h : (⟨3, ![2, 512, 512]⟩ : Shape).Reduces [1] ⟨2, ![2, 512]⟩) (hφ : FKind.Formats FTy.f32)
    (hacc : (0x00000000#32 : BitVec 32) = FKind.add.neutral FTy.f32 hφ) (β : Fin 2) (e : Fin 512) :
    multiReduction .add [1] ⟨2, ![2, 512]⟩ v 0x00000000#32 h hφ hacc (ix2 β e) = ∑ k : Fin 512, v (ix3 β k e) := by
  refine (Ideal.multiReduction_add_single v 0x00000000#32 h hφ hacc (ix2 β e)).trans ?_
  refine Finset.sum_congr rfl fun k _ => congrArg v (funext fun a => Fin.ext ?_)
  match a with
  | ⟨0, _⟩ => rfl
  | ⟨1, _⟩ => rfl
  | ⟨2, _⟩ => rfl

/-! ## The two entries' rows laid one after the other, and back -/

/-- `[2, 256, 512] → [512, 512]`. -/
theorem cast_flatten (v : (⟨3, ![2, 256, 512]⟩ : Shape).Idx → α)
    (h : (⟨3, ![2, 256, 512]⟩ : Shape).ShapeCasts ⟨2, ![512, 512]⟩) (β : Fin 2) (t : Fin 256) (d : Fin 512) :
    shapeCast ⟨2, ![512, 512]⟩ v h (ix2 (frow β t) d) = v (ix3 β t d) :=
  shapeCast_apply v h _ _ (by
    rw [Shape.rowMajor_val_two, Shape.rowMajor_val_three]
    show (β.val * 256 + t.val) * 512 + d.val = (256 * β.val + t.val) * 512 + d.val
    omega)

/-- `[512, 20] → [2, 256, 20]`. -/
theorem cast_unflatten (v : (⟨2, ![512, 20]⟩ : Shape).Idx → α)
    (h : (⟨2, ![512, 20]⟩ : Shape).ShapeCasts ⟨3, ![2, 256, 20]⟩) (β : Fin 2) (t : Fin 256) (p : Fin 20) :
    shapeCast ⟨3, ![2, 256, 20]⟩ v h (ix3 β t p) = v (ix2 (frow β t) p) :=
  shapeCast_apply v h _ _ (by
    rw [Shape.rowMajor_val_two, Shape.rowMajor_val_three]
    show (256 * β.val + t.val) * 20 + p.val = (β.val * 256 + t.val) * 20 + p.val
    omega)

/-! ## A stack of three pieces and its slices -/

/-- The `512` rows from row `o` of a `[1536, 20]` matrix. -/
theorem slice_rows (o : Nat) (ho : o + 512 ≤ 1536) (v : (⟨2, ![1536, 20]⟩ : Shape).Idx → α)
    (h : (⟨2, ![1536, 20]⟩ : Shape).Slices ![o, 0] ⟨2, ![512, 20]⟩) (r : Fin 512) (p : Fin 20) :
    extractStridedSlice ⟨2, ![512, 20]⟩ ![o, 0] v h (ix2 r p) = v (ix2 (srow o ho r) p) := by
  refine extractStridedSlice_apply ![o, 0] v h (ix2 r p) (ix2 (srow o ho r) p) fun ax => ?_
  match ax with
  | ⟨0, _⟩ => rfl
  | ⟨1, _⟩ => show p.val = 0 + p.val; omega

/-- Three `[512, 512]` matrices as the pieces of a stack. -/
abbrev pieces3 (v0 v1 v2 : (⟨2, ![512, 512]⟩ : Shape).Idx → α) : List ((s : Shape) × (s.Idx → α)) :=
  [⟨⟨2, ![512, 512]⟩, v0⟩, ⟨⟨2, ![512, 512]⟩, v1⟩, ⟨⟨2, ![512, 512]⟩, v2⟩]

/-- Piece `k` of three `[512, 512]` matrices stacked along the rows, at row `512 k + r`. -/
theorem stack3_at (v0 v1 v2 : (⟨2, ![512, 512]⟩ : Shape).Idx → α)
    (h : Shape.Concatenates ((pieces3 v0 v1 v2).map (·.1)) ⟨2, ![1536, 512]⟩ (0 : Fin 2)) (r d : Fin 512) :
    concatenate ⟨2, ![1536, 512]⟩ (0 : Fin 2) (pieces3 v0 v1 v2) h (ix2 (srow 0 (by omega) r) d) = v0 (ix2 r d)
    ∧ concatenate ⟨2, ![1536, 512]⟩ (0 : Fin 2) (pieces3 v0 v1 v2) h (ix2 (srow 512 (by omega) r) d) = v1 (ix2 r d)
    ∧ concatenate ⟨2, ![1536, 512]⟩ (0 : Fin 2) (pieces3 v0 v1 v2) h (ix2 (srow 1024 (by omega) r) d) = v2 (ix2 r d) := by
  have off : ∀ b : Fin 2, b.cast (rfl : (2 : Nat) = 2) ≠ (0 : Fin 2) → ∀ o ho,
      ((ix2 r d : (⟨2, ![512, 512]⟩ : Shape).Idx) b).val
        = ((ix2 (srow o ho r) d : (⟨2, ![1536, 512]⟩ : Shape).Idx) (b.cast (rfl : (2 : Nat) = 2))).val := by
    intro b hb o ho
    match b with
    | ⟨0, _⟩ => exact absurd rfl hb
    | ⟨1, _⟩ => rfl
  refine ⟨?_, ?_, ?_⟩
  · exact concatenate_apply_piece (0 : Fin 2) (pieces3 v0 v1 v2) h
      (ix2 (srow 0 (by omega) r) d : (⟨2, ![1536, 512]⟩ : Shape).Idx) 0 (by show (0 : Nat) < 3; decide)
      ⟨2, ![512, 512]⟩ v0 rfl rfl 0 (by rfl) (ix2 r d)
      (fun b hb => off b hb 0 (by omega)) (by show 0 + r.val = 0 + r.val; rfl)
  · exact concatenate_apply_piece (0 : Fin 2) (pieces3 v0 v1 v2) h
      (ix2 (srow 512 (by omega) r) d : (⟨2, ![1536, 512]⟩ : Shape).Idx) 1 (by show (1 : Nat) < 3; decide)
      ⟨2, ![512, 512]⟩ v1 rfl rfl 512 (by rfl) (ix2 r d)
      (fun b hb => off b hb 512 (by omega)) (by show 512 + r.val = 512 + r.val; rfl)
  · exact concatenate_apply_piece (0 : Fin 2) (pieces3 v0 v1 v2) h
      (ix2 (srow 1024 (by omega) r) d : (⟨2, ![1536, 512]⟩ : Shape).Idx) 2 (by show (2 : Nat) < 3; decide)
      ⟨2, ![512, 512]⟩ v2 rfl rfl 1024 (by rfl) (ix2 r d)
      (fun b hb => off b hb 1024 (by omega)) (by show 1024 + r.val = 1024 + r.val; rfl)

end Cert.Attn

end
-- ==== Proof.LibTileDot.lean ====
/-
  A tile product into the zero accumulator, read at one output index, at the ideal values and whatever precision
  the operation names: with the contraction running over one axis of extent `K`, the entry is the sum over
  `k : Fin K` of the left operand times the right operand, each read at the index the dimension numbers assign to
  the output index and `k`. The caller names the two operand indices as functions of `k`.
-/
import Idealize.ShloMosaic.Lib.ValueIdx
import Idealize.ShloMosaic.PureOps.Ideal.Laws

noncomputable section

namespace Cert.LibTileDot

open Idealize.ShloMosaic Idealize.ShloMosaic.ValueIdx

/-- The matrix unit's product of two tiles into a zero accumulator, at output index `j`: the sum over the one
    contracted axis, each factor read where the dimension numbers send `j` and `k`. -/
theorem matmul_zero_at {sl sr so : Shape} {φ₁ φ₂ : FTy} (d : DotDims sl sr so) (prec : Option ContractPrecision) (K : ℕ)
    (hr : d.contr.rank = 1) (hs : d.contr.size ⟨0, by omega⟩ = K)
    (lhs : FVec Ideal sl φ₁) (rhs : FVec Ideal sr φ₂) (j : so.Idx)
    (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    FloatOps.matmul d prec lhs rhs (constant so .f32 0x00000000#32) j = ∑ k : Fin K, lhs (li k) * rhs (ri k) := by
  rw [Ideal.matmul_constant_zero_apply, ← Equiv.sum_comp (contrEquiv1 d K hr hs).symm]
  exact Finset.sum_congr rfl fun k _ => by rw [hl k, hri k]

end Cert.LibTileDot

end
-- ==== Proof.Contract.lean ====
/-
  The block's three matrix products, each read at one output index as a sum over its one contracted axis.

  `alpha`: per entry `β`, the `[256, 512]` operands contracted over their ROWS, `out β d e = Σ_t l β t d · r β t e`.
  `hmean`: per entry, a `[256, 512]` by a `[512, 512]`, `out β t e = Σ_d l β t d · r β d e`.
  The last one has no batch axis and contracts the feature axis of both operands, `out r p = Σ_d l r d · w p d`.
  In each the dimension numbers send an output index and the contraction coordinate to the operand indices written here.
-/
import proofs.«119424_j69939247448444_2_alg».proof.Proof.Gen.KernelIdeal
import proofs.«119424_j69939247448444_2_alg».proof.Proof.LibTileDot
import Idealize.ShloMosaic.Lib.ValueIdx
import Idealize.ShloMosaic.PureOps.Ideal.Laws

noncomputable section

namespace Cert.Attn

open Idealize.ShloMosaic Idealize.ShloMosaic.ValueIdx Cert.KernelIdeal Cert.KernelIdeal.Gen

/-! ## `alpha`: both operands contracted over their rows -/

theorem alpha_l0 (i : S2x512x512.Idx) (q : dot_S2x256x512_S2x256x512_S2x512x512_1_1_2_2_0_0.contr.Idx) :
    (dot_S2x256x512_S2x256x512_S2x512x512_1_1_2_2_0_0.lhsIdx i q 0).val = (i 0).val := by
  unfold DotDims.lhsIdx
  rw [dif_pos (show (0 : Fin S2x256x512.rank) ∈ dot_S2x256x512_S2x256x512_S2x512x512_1_1_2_2_0_0.lhsBatch by decide)]
  rfl
theorem alpha_l1 (i : S2x512x512.Idx) (q : dot_S2x256x512_S2x256x512_S2x512x512_1_1_2_2_0_0.contr.Idx) :
    (dot_S2x256x512_S2x256x512_S2x512x512_1_1_2_2_0_0.lhsIdx i q 1).val = (q ⟨0, by decide⟩).val :=
  dot_S2x256x512_S2x256x512_S2x512x512_1_1_2_2_0_0.lhsIdx_val_of_single rfl i q
theorem alpha_l2 (i : S2x512x512.Idx) (q : dot_S2x256x512_S2x256x512_S2x512x512_1_1_2_2_0_0.contr.Idx) :
    (dot_S2x256x512_S2x256x512_S2x512x512_1_1_2_2_0_0.lhsIdx i q 2).val = (i 1).val := by
  unfold DotDims.lhsIdx
  rw [dif_neg (show ¬(2 : Fin S2x256x512.rank) ∈ dot_S2x256x512_S2x256x512_S2x512x512_1_1_2_2_0_0.lhsBatch by decide),
    dif_pos (show (2 : Fin S2x256x512.rank) ∈ dot_S2x256x512_S2x256x512_S2x512x512_1_1_2_2_0_0.lhsNonContracting by decide)]
  rfl
theorem alpha_r0 (i : S2x512x512.Idx) (q : dot_S2x256x512_S2x256x512_S2x512x512_1_1_2_2_0_0.contr.Idx) :
    (dot_S2x256x512_S2x256x512_S2x512x512_1_1_2_2_0_0.rhsIdx i q 0).val = (i 0).val := by
  unfold DotDims.rhsIdx
  rw [dif_pos (show (0 : Fin S2x256x512.rank) ∈ dot_S2x256x512_S2x256x512_S2x512x512_1_1_2_2_0_0.rhsBatch by decide)]
  rfl
theorem alpha_r1 (i : S2x512x512.Idx) (q : dot_S2x256x512_S2x256x512_S2x512x512_1_1_2_2_0_0.contr.Idx) :
    (dot_S2x256x512_S2x256x512_S2x512x512_1_1_2_2_0_0.rhsIdx i q 1).val = (q ⟨0, by decide⟩).val :=
  dot_S2x256x512_S2x256x512_S2x512x512_1_1_2_2_0_0.rhsIdx_val_of_single rfl i q
theorem alpha_r2 (i : S2x512x512.Idx) (q : dot_S2x256x512_S2x256x512_S2x512x512_1_1_2_2_0_0.contr.Idx) :
    (dot_S2x256x512_S2x256x512_S2x512x512_1_1_2_2_0_0.rhsIdx i q 2).val = (i 2).val := by
  unfold DotDims.rhsIdx
  rw [dif_neg (show ¬(2 : Fin S2x256x512.rank) ∈ dot_S2x256x512_S2x256x512_S2x512x512_1_1_2_2_0_0.rhsBatch by decide),
    dif_pos (show (2 : Fin S2x256x512.rank) ∈ dot_S2x256x512_S2x256x512_S2x512x512_1_1_2_2_0_0.rhsNonContracting by decide)]
  rfl

/-- `out β d e = Σ_t l β t d · r β t e`. -/
theorem alpha_dot {φ₁ φ₂ : FTy} (prec : Option ContractPrecision) (l : FVec Ideal S2x256x512 φ₁) (r : FVec Ideal S2x256x512 φ₂)
    (β : Fin 2) (d e : Fin 512) :
    FloatOps.matmul dot_S2x256x512_S2x256x512_S2x512x512_1_1_2_2_0_0 prec l r (constant S2x512x512 .f32 0x00000000#32) (ix3 β d e)
      = ∑ t : Fin 256, l (ix3 β t d) * r (ix3 β t e) := by
  refine Cert.LibTileDot.matmul_zero_at dot_S2x256x512_S2x256x512_S2x512x512_1_1_2_2_0_0 prec 256 rfl rfl l r (ix3 β d e)
    (fun t => ix3 β t d) (fun t => ix3 β t e) (fun k => ?_) (fun k => ?_)
  · have hk := contrEquiv1_symm_val dot_S2x256x512_S2x256x512_S2x512x512_1_1_2_2_0_0 256 rfl rfl k
    exact funext fun a => Fin.ext (by
      match a with
      | ⟨0, _⟩ => exact alpha_l0 _ _
      | ⟨1, _⟩ => exact (alpha_l1 _ _).trans hk
      | ⟨2, _⟩ => exact alpha_l2 _ _)
  · have hk := contrEquiv1_symm_val dot_S2x256x512_S2x256x512_S2x512x512_1_1_2_2_0_0 256 rfl rfl k
    exact funext fun a => Fin.ext (by
      match a with
      | ⟨0, _⟩ => exact alpha_r0 _ _
      | ⟨1, _⟩ => exact (alpha_r1 _ _).trans hk
      | ⟨2, _⟩ => exact alpha_r2 _ _)

/-! ## `hmean`: the features of the left operand against the rows of the right -/

theorem hmean_l0 (i : S2x256x512.Idx) (q : dot_S2x256x512_S2x512x512_S2x256x512_2_1_1_2_0_0.contr.Idx) :
    (dot_S2x256x512_S2x512x512_S2x256x512_2_1_1_2_0_0.lhsIdx i q 0).val = (i 0).val := by
  unfold DotDims.lhsIdx
  rw [dif_pos (show (0 : Fin S2x256x512.rank) ∈ dot_S2x256x512_S2x512x512_S2x256x512_2_1_1_2_0_0.lhsBatch by decide)]
  rfl
theorem hmean_l1 (i : S2x256x512.Idx) (q : dot_S2x256x512_S2x512x512_S2x256x512_2_1_1_2_0_0.contr.Idx) :
    (dot_S2x256x512_S2x512x512_S2x256x512_2_1_1_2_0_0.lhsIdx i q 1).val = (i 1).val := by
  unfold DotDims.lhsIdx
  rw [dif_neg (show ¬(1 : Fin S2x256x512.rank) ∈ dot_S2x256x512_S2x512x512_S2x256x512_2_1_1_2_0_0.lhsBatch by decide),
    dif_pos (show (1 : Fin S2x256x512.rank) ∈ dot_S2x256x512_S2x512x512_S2x256x512_2_1_1_2_0_0.lhsNonContracting by decide)]
  rfl
theorem hmean_l2 (i : S2x256x512.Idx) (q : dot_S2x256x512_S2x512x512_S2x256x512_2_1_1_2_0_0.contr.Idx) :
    (dot_S2x256x512_S2x512x512_S2x256x512_2_1_1_2_0_0.lhsIdx i q 2).val = (q ⟨0, by decide⟩).val :=
  dot_S2x256x512_S2x512x512_S2x256x512_2_1_1_2_0_0.lhsIdx_val_of_single rfl i q
theorem hmean_r0 (i : S2x256x512.Idx) (q : dot_S2x256x512_S2x512x512_S2x256x512_2_1_1_2_0_0.contr.Idx) :
    (dot_S2x256x512_S2x512x512_S2x256x512_2_1_1_2_0_0.rhsIdx i q 0).val = (i 0).val := by
  unfold DotDims.rhsIdx
  rw [dif_pos (show (0 : Fin S2x512x512.rank) ∈ dot_S2x256x512_S2x512x512_S2x256x512_2_1_1_2_0_0.rhsBatch by decide)]
  rfl
theorem hmean_r1 (i : S2x256x512.Idx) (q : dot_S2x256x512_S2x512x512_S2x256x512_2_1_1_2_0_0.contr.Idx) :
    (dot_S2x256x512_S2x512x512_S2x256x512_2_1_1_2_0_0.rhsIdx i q 1).val = (q ⟨0, by decide⟩).val :=
  dot_S2x256x512_S2x512x512_S2x256x512_2_1_1_2_0_0.rhsIdx_val_of_single rfl i q
theorem hmean_r2 (i : S2x256x512.Idx) (q : dot_S2x256x512_S2x512x512_S2x256x512_2_1_1_2_0_0.contr.Idx) :
    (dot_S2x256x512_S2x512x512_S2x256x512_2_1_1_2_0_0.rhsIdx i q 2).val = (i 2).val := by
  unfold DotDims.rhsIdx
  rw [dif_neg (show ¬(2 : Fin S2x512x512.rank) ∈ dot_S2x256x512_S2x512x512_S2x256x512_2_1_1_2_0_0.rhsBatch by decide),
    dif_pos (show (2 : Fin S2x512x512.rank) ∈ dot_S2x256x512_S2x512x512_S2x256x512_2_1_1_2_0_0.rhsNonContracting by decide)]
  rfl

/-- `out β t e = Σ_d l β t d · r β d e`. -/
theorem hmean_dot {φ₁ φ₂ : FTy} (prec : Option ContractPrecision) (l : FVec Ideal S2x256x512 φ₁) (r : FVec Ideal S2x512x512 φ₂)
    (β : Fin 2) (t : Fin 256) (e : Fin 512) :
    FloatOps.matmul dot_S2x256x512_S2x512x512_S2x256x512_2_1_1_2_0_0 prec l r (constant S2x256x512 .f32 0x00000000#32) (ix3 β t e)
      = ∑ d : Fin 512, l (ix3 β t d) * r (ix3 β d e) := by
  refine Cert.LibTileDot.matmul_zero_at dot_S2x256x512_S2x512x512_S2x256x512_2_1_1_2_0_0 prec 512 rfl rfl l r (ix3 β t e)
    (fun d => ix3 β t d) (fun d => ix3 β d e) (fun k => ?_) (fun k => ?_)
  · have hk := contrEquiv1_symm_val dot_S2x256x512_S2x512x512_S2x256x512_2_1_1_2_0_0 512 rfl rfl k
    exact funext fun a => Fin.ext (by
      match a with
      | ⟨0, _⟩ => exact hmean_l0 _ _
      | ⟨1, _⟩ => exact hmean_l1 _ _
      | ⟨2, _⟩ => exact (hmean_l2 _ _).trans hk)
  · have hk := contrEquiv1_symm_val dot_S2x256x512_S2x512x512_S2x256x512_2_1_1_2_0_0 512 rfl rfl k
    exact funext fun a => Fin.ext (by
      match a with
      | ⟨0, _⟩ => exact hmean_r0 _ _
      | ⟨1, _⟩ => exact (hmean_r1 _ _).trans hk
      | ⟨2, _⟩ => exact hmean_r2 _ _)

/-! ## The stacked rows against the squared weights -/

theorem wsq_l0 (i : S1536x20.Idx) (q : dot_S1536x512_S20x512_S1536x20_1_1_0_0_n_n.contr.Idx) :
    (dot_S1536x512_S20x512_S1536x20_1_1_0_0_n_n.lhsIdx i q 0).val = (i 0).val := by
  unfold DotDims.lhsIdx
  rw [dif_neg (show ¬(0 : Fin S1536x512.rank) ∈ dot_S1536x512_S20x512_S1536x20_1_1_0_0_n_n.lhsBatch by decide),
    dif_pos (show (0 : Fin S1536x512.rank) ∈ dot_S1536x512_S20x512_S1536x20_1_1_0_0_n_n.lhsNonContracting by decide)]
  rfl
theorem wsq_l1 (i : S1536x20.Idx) (q : dot_S1536x512_S20x512_S1536x20_1_1_0_0_n_n.contr.Idx) :
    (dot_S1536x512_S20x512_S1536x20_1_1_0_0_n_n.lhsIdx i q 1).val = (q ⟨0, by decide⟩).val :=
  dot_S1536x512_S20x512_S1536x20_1_1_0_0_n_n.lhsIdx_val_of_single rfl i q
theorem wsq_r0 (i : S1536x20.Idx) (q : dot_S1536x512_S20x512_S1536x20_1_1_0_0_n_n.contr.Idx) :
    (dot_S1536x512_S20x512_S1536x20_1_1_0_0_n_n.rhsIdx i q 0).val = (i 1).val := by
  unfold DotDims.rhsIdx
  rw [dif_neg (show ¬(0 : Fin S20x512.rank) ∈ dot_S1536x512_S20x512_S1536x20_1_1_0_0_n_n.rhsBatch by decide),
    dif_pos (show (0 : Fin S20x512.rank) ∈ dot_S1536x512_S20x512_S1536x20_1_1_0_0_n_n.rhsNonContracting by decide)]
  rfl
theorem wsq_r1 (i : S1536x20.Idx) (q : dot_S1536x512_S20x512_S1536x20_1_1_0_0_n_n.contr.Idx) :
    (dot_S1536x512_S20x512_S1536x20_1_1_0_0_n_n.rhsIdx i q 1).val = (q ⟨0, by decide⟩).val :=
  dot_S1536x512_S20x512_S1536x20_1_1_0_0_n_n.rhsIdx_val_of_single rfl i q

/-- `out r p = Σ_d l r d · w p d`. -/
theorem wsq_dot {φ₁ φ₂ : FTy} (prec : Option ContractPrecision) (l : FVec Ideal S1536x512 φ₁) (w : FVec Ideal S20x512 φ₂)
    (r : Fin 1536) (p : Fin 20) :
    FloatOps.matmul dot_S1536x512_S20x512_S1536x20_1_1_0_0_n_n prec l w (constant S1536x20 .f32 0x00000000#32) (ix2 r p)
      = ∑ d : Fin 512, l (ix2 r d) * w (ix2 p d) := by
  refine Cert.LibTileDot.matmul_zero_at dot_S1536x512_S20x512_S1536x20_1_1_0_0_n_n prec 512 rfl rfl l w (ix2 r p)
    (fun d => ix2 r d) (fun d => ix2 p d) (fun k => ?_) (fun k => ?_)
  · have hk := contrEquiv1_symm_val dot_S1536x512_S20x512_S1536x20_1_1_0_0_n_n 512 rfl rfl k
    exact funext fun a => Fin.ext (by
      match a with
      | ⟨0, _⟩ => exact wsq_l0 _ _
      | ⟨1, _⟩ => exact (wsq_l1 _ _).trans hk)
  · have hk := contrEquiv1_symm_val dot_S1536x512_S20x512_S1536x20_1_1_0_0_n_n 512 rfl rfl k
    exact funext fun a => Fin.ext (by
      match a with
      | ⟨0, _⟩ => exact wsq_r0 _ _
      | ⟨1, _⟩ => exact (wsq_r1 _ _).trans hk)

end Cert.Attn

end
-- ==== Proof.Block.lean ====
/-
  One block's result, at coordinates, is the specification for its batch entry.

  A block holds two batch entries of `a` and `b` and the whole weight matrix. The body normalises the rows of both
  entries, contracts them over the rows into `alpha`, normalises `alpha`'s columns, contracts again into `hmean`, and
  then takes, for every weight row, three contractions against the squared weights — of `a·hmean`, `a·a` and
  `hmean·hmean` — in ONE product: the three matrices' rows are laid one after the other, the two entries' rows
  likewise, and the product's rows are cut back into the three parts. Read at entry `β`, row `t`, weight row `p`,
  each part is the contraction over the features of row `256 β + t` of its piece, which is row `t` of entry `β`.
  The narrowing of a factor's format before a product does not change its value here.
-/
import proofs.«119424_j69939247448444_2_alg».proof.Proof.Gen.KernelIdeal.Skeleton
import proofs.«119424_j69939247448444_2_alg».proof.Proof.Spec
import proofs.«119424_j69939247448444_2_alg».proof.Proof.Layout
import proofs.«119424_j69939247448444_2_alg».proof.Proof.Contract

noncomputable section

namespace Cert.Attn

open Idealize.ShloMosaic Idealize.ShloMosaic.ValueIdx Cert.KernelIdeal Cert.KernelIdeal.Gen

/-- Batch entry `β` of a block, as a matrix. -/
def ent (x : FVec Ideal S2x256x512 .f32) (β : Fin 2) : Fin 256 → Fin 512 → EReal := fun t d => x (ix3 β t d)

/-! ## The rows normalised -/

/-- A block with every row scaled by the inverse root of its clamped sum of squares, as the body computes it. -/
def rownV (x : FVec Ideal S2x256x512 .f32) : FVec Ideal S2x256x512 .f32 :=
  mulf x (broadcastTo S2x256x512 (rsqrt (maximumf
    (shapeCast S2x256x1 (multiReduction .add [2] S2x256 (mulf x x) 0x00000000#32 reduces_S2x256x512_S2x256 (.inl rfl) rfl)
      shapeCasts_S2x256_S2x256x1)
    (broadcast S2x256x1 (Scalar.ofBits .f32 0x2B8CBCCC#32)))) broadcasts_S2x256x1_S2x256x512)

theorem rownV_at (x : FVec Ideal S2x256x512 .f32) (β : Fin 2) (t : Fin 256) (d : Fin 512) :
    rownV x (ix3 β t d) = rown (ent x β) t d := by
  show x (ix3 β t d) * (broadcastTo S2x256x512 _ broadcasts_S2x256x1_S2x256x512 (ix3 β t d))
    = x (ix3 β t d) * rs (∑ k : Fin 512, x (ix3 β t k) * x (ix3 β t k))
  refine congrArg (x (ix3 β t d) * ·) ?_
  refine (bcast_last _ _ β t d).trans ?_
  show Ideal.rsqrt (max (shapeCast S2x256x1 _ shapeCasts_S2x256_S2x256x1 (ix3 β t (0 : Fin 1))) eps) = Ideal.rsqrt (max _ eps)
  refine congrArg (fun s => Ideal.rsqrt (max s eps)) ?_
  refine (cast_keep_last _ _ β t 0).trans ?_
  exact sum_last _ _ _ _ β t

/-! ## `alpha`, its columns normalised, and `hmean` -/

def alphaV (x0 x1 : FVec Ideal S2x256x512 .f32) : FVec Ideal S2x512x512 .f32 :=
  matmul dot_S2x256x512_S2x256x512_S2x512x512_1_1_2_2_0_0 none (truncf .bf16 (rownV x1) bitsLt_bf16_f32)
    (truncf .bf16 (rownV x0) bitsLt_bf16_f32) (constant S2x512x512 .f32 0x00000000#32)

theorem alphaV_at (x0 x1 : FVec Ideal S2x256x512 .f32) (β : Fin 2) (d e : Fin 512) :
    alphaV x0 x1 (ix3 β d e) = alpha (ent x0 β) (ent x1 β) d e := by
  refine (alpha_dot none _ _ β d e).trans ?_
  refine Finset.sum_congr rfl fun t _ => ?_
  show rownV x1 (ix3 β t d) * rownV x0 (ix3 β t e) = rown (ent x1 β) t d * rown (ent x0 β) t e
  rw [rownV_at, rownV_at]

def alphanV (x0 x1 : FVec Ideal S2x256x512 .f32) : FVec Ideal S2x512x512 .f32 :=
  mulf (alphaV x0 x1) (broadcastTo S2x512x512 (rsqrt (maximumf
    (shapeCast S2x1x512 (multiReduction .add [1] S2x512 (mulf (alphaV x0 x1) (alphaV x0 x1)) 0x00000000#32
      reduces_S2x512x512_S2x512 (.inl rfl) rfl) shapeCasts_S2x512_S2x1x512)
    (broadcast S2x1x512 (Scalar.ofBits .f32 0x2B8CBCCC#32)))) broadcasts_S2x1x512_S2x512x512)

theorem alphanV_at (x0 x1 : FVec Ideal S2x256x512 .f32) (β : Fin 2) (d e : Fin 512) :
    alphanV x0 x1 (ix3 β d e) = alphan (ent x0 β) (ent x1 β) d e := by
  show alphaV x0 x1 (ix3 β d e) * (broadcastTo S2x512x512 _ broadcasts_S2x1x512_S2x512x512 (ix3 β d e))
    = alpha (ent x0 β) (ent x1 β) d e * rs (∑ k : Fin 512, alpha (ent x0 β) (ent x1 β) k e * alpha (ent x0 β) (ent x1 β) k e)
  rw [alphaV_at]
  refine congrArg (alpha (ent x0 β) (ent x1 β) d e * ·) ?_
  refine (bcast_mid _ _ β d e).trans ?_
  show Ideal.rsqrt (max (shapeCast S2x1x512 _ shapeCasts_S2x512_S2x1x512 (ix3 β (0 : Fin 1) e)) eps) = Ideal.rsqrt (max _ eps)
  refine congrArg (fun s => Ideal.rsqrt (max s eps)) ?_
  refine (cast_keep_mid _ _ β 0 e).trans ?_
  refine (sum_mid _ _ _ _ β e).trans ?_
  refine Finset.sum_congr rfl fun k _ => ?_
  show alphaV x0 x1 (ix3 β k e) * alphaV x0 x1 (ix3 β k e) = _
  rw [alphaV_at]

def hmeanV (x0 x1 : FVec Ideal S2x256x512 .f32) : FVec Ideal S2x256x512 .f32 :=
  matmul dot_S2x256x512_S2x512x512_S2x256x512_2_1_1_2_0_0 none (truncf .bf16 (rownV x1) bitsLt_bf16_f32)
    (truncf .bf16 (alphanV x0 x1) bitsLt_bf16_f32) (constant S2x256x512 .f32 0x00000000#32)

theorem hmeanV_at (x0 x1 : FVec Ideal S2x256x512 .f32) (β : Fin 2) (t : Fin 256) (e : Fin 512) :
    hmeanV x0 x1 (ix3 β t e) = hmean (ent x0 β) (ent x1 β) t e := by
  refine (hmean_dot none _ _ β t e).trans ?_
  refine Finset.sum_congr rfl fun d _ => ?_
  show rownV x1 (ix3 β t d) * alphanV x0 x1 (ix3 β d e) = rown (ent x1 β) t d * alphan (ent x0 β) (ent x1 β) d e
  rw [rownV_at, alphanV_at]

/-- The body's second contraction is `hmeanV`. -/
theorem pay2_eq (x0 x1 : FVec Ideal S2x256x512 .f32) : k0_pay2 x0 x1 = hmeanV x0 x1 := rfl

/-! ## The three contractions against the squared weights, in one product -/

def stackV (n da dh : FVec Ideal S512x512 .bf16) : FVec Ideal S1536x512 .bf16 :=
  concatenate S1536x512 0 [⟨S512x512, n⟩, ⟨S512x512, da⟩, ⟨S512x512, dh⟩] concatenates_S512x512_S512x512_S512x512_S1536x512_d0

def resV (w : FVec Ideal S20x512 .bf16) (n da dh : FVec Ideal S512x512 .bf16) : FVec Ideal S1536x20 .f32 :=
  matmul dot_S1536x512_S20x512_S1536x20_1_1_0_0_n_n none (stackV n da dh) w (constant S1536x20 .f32 0x00000000#32)

/-- The part of the product that starts at row `o`, as two entries of `256` rows. -/
def partV (o : Nat) (h : S1536x20.Slices ![o, 0] S512x20) (w : FVec Ideal S20x512 .bf16) (n da dh : FVec Ideal S512x512 .bf16) :
    FVec Ideal S2x256x20 .f32 :=
  shapeCast S2x256x20 (extractStridedSlice S512x20 ![o, 0] (resV w n da dh) h) shapeCasts_S512x20_S2x256x20

theorem partV_at (o : Nat) (ho : o + 512 ≤ 1536) (h : S1536x20.Slices ![o, 0] S512x20) (w : FVec Ideal S20x512 .bf16)
    (n da dh piece : FVec Ideal S512x512 .bf16)
    (hpiece : ∀ r d : Fin 512, stackV n da dh (ix2 (srow o ho r) d) = piece (ix2 r d))
    (β : Fin 2) (t : Fin 256) (p : Fin 20) :
    partV o h w n da dh (ix3 β t p) = ∑ d : Fin 512, piece (ix2 (frow β t) d) * w (ix2 p d) := by
  refine (cast_unflatten _ _ β t p).trans ?_
  refine (slice_rows o ho _ h (frow β t) p).trans ?_
  refine (wsq_dot none _ w (srow o ho (frow β t)) p).trans ?_
  exact Finset.sum_congr rfl fun d _ => by rw [hpiece]

/-- The body's store, over the three parts. -/
theorem pay1_eq (w : FVec Ideal S20x512 .bf16) (n da dh : FVec Ideal S512x512 .bf16) :
    k0_pay1 w n da dh
      = mulf (mulf (partV 0 slices_S1536x20_o0_0_S512x20 w n da dh)
          (rsqrt (maximumf (partV 512 slices_S1536x20_o512_0_S512x20 w n da dh) (broadcast S2x256x20 (Scalar.ofBits .f32 0x2B8CBCCC#32)))))
        (rsqrt (maximumf (partV 1024 slices_S1536x20_o1024_0_S512x20 w n da dh) (broadcast S2x256x20 (Scalar.ofBits .f32 0x2B8CBCCC#32)))) := rfl

theorem pay1_at (w : FVec Ideal S20x512 .bf16) (n da dh : FVec Ideal S512x512 .bf16) (β : Fin 2) (t : Fin 256) (p : Fin 20) :
    k0_pay1 w n da dh (ix3 β t p)
      = (∑ d : Fin 512, n (ix2 (frow β t) d) * w (ix2 p d)) * rs (∑ d : Fin 512, da (ix2 (frow β t) d) * w (ix2 p d))
        * rs (∑ d : Fin 512, dh (ix2 (frow β t) d) * w (ix2 p d)) := by
  have hS := fun r d => stack3_at n da dh concatenates_S512x512_S512x512_S512x512_S1536x512_d0 r d
  rw [pay1_eq]
  show partV 0 slices_S1536x20_o0_0_S512x20 w n da dh (ix3 β t p)
      * Ideal.rsqrt (max (partV 512 slices_S1536x20_o512_0_S512x20 w n da dh (ix3 β t p)) eps)
      * Ideal.rsqrt (max (partV 1024 slices_S1536x20_o1024_0_S512x20 w n da dh (ix3 β t p)) eps) = _
  rw [partV_at 0 (by omega) _ w n da dh n (fun r d => (hS r d).1) β t p,
    partV_at 512 (by omega) _ w n da dh da (fun r d => (hS r d).2.1) β t p,
    partV_at 1024 (by omega) _ w n da dh dh (fun r d => (hS r d).2.2) β t p]
  rfl

/-! ## The three pieces and the squared weights -/

theorem pay3_at (x2 : FVec Ideal S20x512 .f32) (p : Fin 20) (d : Fin 512) :
    k0_pay3 (F := Ideal) x2 (ix2 p d) = x2 (ix2 p d) * x2 (ix2 p d) := rfl

theorem pay4_at (x0 x1 : FVec Ideal S2x256x512 .f32) (β : Fin 2) (t : Fin 256) (d : Fin 512) :
    k0_pay4 (F := Ideal) x0 x1 (ix2 (frow β t) d) = x0 (ix3 β t d) * hmeanV x0 x1 (ix3 β t d) := by
  show shapeCast S512x512 (truncf .bf16 (mulf x0 (k0_pay2 x0 x1)) bitsLt_bf16_f32) shapeCasts_S2x256x512_S512x512
    (ix2 (frow β t) d) = _
  exact (cast_flatten _ _ β t d).trans rfl

theorem pay5_at (x0 : FVec Ideal S2x256x512 .f32) (β : Fin 2) (t : Fin 256) (d : Fin 512) :
    k0_pay5 (F := Ideal) x0 (ix2 (frow β t) d) = x0 (ix3 β t d) * x0 (ix3 β t d) := by
  show shapeCast S512x512 (truncf .bf16 (mulf x0 x0) bitsLt_bf16_f32) shapeCasts_S2x256x512_S512x512
    (ix2 (frow β t) d) = _
  exact (cast_flatten _ _ β t d).trans rfl

theorem pay6_at (x0 x1 : FVec Ideal S2x256x512 .f32) (β : Fin 2) (t : Fin 256) (d : Fin 512) :
    k0_pay6 (F := Ideal) x0 x1 (ix2 (frow β t) d) = hmeanV x0 x1 (ix3 β t d) * hmeanV x0 x1 (ix3 β t d) := by
  show shapeCast S512x512 (truncf .bf16 (mulf (k0_pay2 (F := Ideal) x0 x1) (k0_pay2 (F := Ideal) x0 x1)) bitsLt_bf16_f32) shapeCasts_S2x256x512_S512x512
    (ix2 (frow β t) d) = _
  exact (cast_flatten _ _ β t d).trans rfl

/-! ## The block -/

/-- What the body stores, at entry `β`, row `t`, weight row `p`, is the specification of entry `β`. -/
theorem block_at (x0 x1 : FVec Ideal S2x256x512 .f32) (x2 : FVec Ideal S20x512 .f32) (β : Fin 2) (t : Fin 256) (p : Fin 20) :
    k0_pay1 (F := Ideal) (k0_pay3 x2) (k0_pay4 x0 x1) (k0_pay5 x0) (k0_pay6 x0 x1) (ix3 β t p)
      = persp (ent x0 β) (ent x1 β) (wmat x2) t p := by
  rw [pay1_at]
  simp only [pay3_at, pay4_at, pay5_at, pay6_at, hmeanV_at]
  rfl

/-! ## A block of the whole arrays -/

/-- Entry `2 q + β` of the whole arrays: entry `β` of block `q`. -/
def ent2 (q : Nat) (hq : q < 16) (β : Fin 2) : Fin 32 := ⟨2 * q + β.val, by omega⟩

/-- When the three blocks are block `q` of the input arrays and the whole weights, what the body stores at a block
    index is the specification at that index of block `q` of the result array. -/
theorem point_eq (A B : S32x256x512.Idx → EReal) (W : S20x512.Idx → EReal)
    (x0 x1 : FVec Ideal S2x256x512 .f32) (x2 : FVec Ideal S20x512 .f32) (q : Nat) (hq : q < 16)
    (h0 : ∀ (β : Fin 2) (r : Fin 256) (d : Fin 512), x0 (ix3 β r d) = A (ix3 (ent2 q hq β) r d))
    (h1 : ∀ (β : Fin 2) (r : Fin 256) (d : Fin 512), x1 (ix3 β r d) = B (ix3 (ent2 q hq β) r d))
    (h2 : ∀ (p : Fin 20) (d : Fin 512), x2 (ix2 p d) = W (ix2 p d)) (j : S2x256x20.Idx) :
    k0_pay1 (F := Ideal) (k0_pay3 x2) (k0_pay4 x0 x1) (k0_pay5 x0) (k0_pay6 x0 x1) j
      = G A B W (ix3 (ent2 q hq (j 0)) (j 1) (j 2)) := by
  obtain ⟨β, r, p, rfl⟩ : ∃ (β : Fin 2) (r : Fin 256) (p : Fin 20), j = ix3 β r p := ⟨j 0, j 1, j 2, eq_ix3 j⟩
  rw [block_at]
  show _ = persp (entA A (ent2 q hq β)) (entA B (ent2 q hq β)) (wmat W) r p
  have e0 : ent x0 β = entA A (ent2 q hq β) := funext fun r => funext fun d => h0 β r d
  have e1 : ent x1 β = entA B (ent2 q hq β) := funext fun r => funext fun d => h1 β r d
  have e2 : wmat x2 = wmat W := funext fun p => funext fun d => h2 p d
  rw [e0, e1, e2]

end Cert.Attn

end
-- ==== Proof.Whole.lean ====
/-
  The result array after the run is the specification of the input arrays.

  The grid has sixteen points; point `q` stages entries `2 q` and `2 q + 1` of both inputs, the whole weight matrix,
  and writes back entries `2 q`, `2 q + 1` of the result. So what point `q` writes back is block `q` of the
  specification: an element of a staged block sits in its array at block index times block size plus its coordinate
  inside the block, on every axis. The sixteen blocks cover the result array: entry `β` lies in block `β / 2`.
-/
import proofs.«119424_j69939247448444_2_alg».proof.Proof.Gen.KernelIdeal.Value
import proofs.«119424_j69939247448444_2_alg».proof.Proof.Block

noncomputable section

namespace Cert.KernelIdeal.Whole

open Cert.KernelIdeal Cert.KernelIdeal.Gen Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the inputs' and the result's blocks move along the batch axis with the
    point, the weights' block stays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The result array the run leaves, as a function of the argument arrays as the region finds them. -/
abbrev spec (c : Dev nD) : S32x256x20.Idx → EReal :=
  G (V m c main_arg0) (V m c main_arg1) (V m c main_arg2)

/-- WHAT POINT `t` WRITES BACK is block `t` of the specification. -/
theorem flushed_eq (c : Dev nD) (t : Fin cfg0.N) :
    (dats m 0 c).flushed 3 t = ((cfg0.win 3).blk t).view.read (Elt Ideal) (spec m c) := by
  rw [Value.flushed3]
  unfold out0_3
  rw [View.canon_unit_zero hz3]
  simp only [View.ld_unit_zero (S := S2x256x512) hz3, View.ld_unit_zero (S := S20x512) hz2]
  obtain ⟨a0, a1, a2, b0, b1, b2, w0, w1, o0, o1, o2⟩ := idx_facts t
  have ht : t.val < 16 := lt_of_lt_of_eq t.isLt N_0
  funext j
  show k0_pay1 (F := Ideal) (k0_pay3 (iblk m c 2 t)) (k0_pay4 (iblk m c 0 t) (iblk m c 1 t)) (k0_pay5 (iblk m c 0 t))
      (k0_pay6 (iblk m c 0 t) (iblk m c 1 t)) j = spec m c (((cfg0.win 3).blk t).view.emb j)
  refine (point_eq (V m c main_arg0) (V m c main_arg1) (V m c main_arg2) (iblk m c 0 t) (iblk m c 1 t) (iblk m c 2 t)
    t.val ht ?_ ?_ ?_ j).trans ?_
  · intro β r d
    show V m c main_arg0 (((cfg0.win 0).blk t).view.emb (ix3 β r d)) = V m c main_arg0 (ix3 (ent2 t.val ht β) r d)
    refine congrArg (V m c main_arg0) (funext fun a => Fin.ext ?_)
    match a with
    | ⟨0, _⟩ => show win0_0.index t (0 : Fin 3) * 2 + 1 * β.val = 2 * t.val + β.val; omega
    | ⟨1, _⟩ => show win0_0.index t (1 : Fin 3) * 256 + 1 * r.val = r.val; omega
    | ⟨2, _⟩ => show win0_0.index t (2 : Fin 3) * 512 + 1 * d.val = d.val; omega
  · intro β r d
    show V m c main_arg1 (((cfg0.win 1).blk t).view.emb (ix3 β r d)) = V m c main_arg1 (ix3 (ent2 t.val ht β) r d)
    refine congrArg (V m c main_arg1) (funext fun a => Fin.ext ?_)
    match a with
    | ⟨0, _⟩ => show win0_1.index t (0 : Fin 3) * 2 + 1 * β.val = 2 * t.val + β.val; omega
    | ⟨1, _⟩ => show win0_1.index t (1 : Fin 3) * 256 + 1 * r.val = r.val; omega
    | ⟨2, _⟩ => show win0_1.index t (2 : Fin 3) * 512 + 1 * d.val = d.val; omega
  · intro p d
    show V m c main_arg2 (((cfg0.win 2).blk t).view.emb (ix2 p d)) = V m c main_arg2 (ix2 p d)
    refine congrArg (V m c main_arg2) (funext fun a => Fin.ext ?_)
    match a with
    | ⟨0, _⟩ => show win0_2.index t (0 : Fin 2) * 20 + 1 * p.val = p.val; omega
    | ⟨1, _⟩ => show win0_2.index t (1 : Fin 2) * 512 + 1 * d.val = d.val; omega
  · refine congrArg (spec m c) (funext fun a => Fin.ext ?_)
    match a with
    | ⟨0, _⟩ => show 2 * t.val + (j 0).val = win0_3.index t (0 : Fin 3) * 2 + 1 * (j 0).val; omega
    | ⟨1, _⟩ => show (j 1).val = win0_3.index t (1 : Fin 3) * 256 + 1 * (j 1).val; omega
    | ⟨2, _⟩ => show (j 2).val = win0_3.index t (2 : Fin 3) * 20 + 1 * (j 2).val; omega

/-- An index of the result array is in point `t`'s block iff each coordinate is in the block's range on its axis. -/
theorem mem_blk (t : Fin cfg0.N) (i : S32x256x20.Idx) :
    i ∈ ((cfg0.win 3).blk t).view.set ↔ ∀ a : Fin 3, win0_3.index t a * S2x256x20.size a ≤ (i a).val
      ∧ (i a).val < win0_3.index t a * S2x256x20.size a + S2x256x20.size a := by
  show i ∈ ((View.whole main_v0).slice (win0_3.rect t)).set ↔ _
  rw [View.set_slice_whole, Rect.mem_set_unit]
  exact Iff.rfl

/-- The sixteen blocks cover the result array: entry `β` lies in the block of point `β / 2`. -/
theorem cover (i : S32x256x20.Idx) : ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 20 := (i 2).isLt
  have hN : cfg0.N = 16 := N_0
  refine ⟨⟨(i 0).val / 2, by rw [hN]; omega⟩, flush0_3 _, ?_⟩
  obtain ⟨-, -, -, -, -, -, -, -, o0, o1, o2⟩ := idx_facts ⟨(i 0).val / 2, by rw [hN]; omega⟩
  rw [mem_blk]
  intro a
  match a with
  | ⟨0, _⟩ =>
    show win0_3.index _ (0 : Fin 3) * 2 ≤ (i 0).val ∧ (i 0).val < win0_3.index _ (0 : Fin 3) * 2 + 2
    rw [o0]; show (i 0).val / 2 * 2 ≤ (i 0).val ∧ (i 0).val < (i 0).val / 2 * 2 + 2; omega
  | ⟨1, _⟩ =>
    show win0_3.index _ (1 : Fin 3) * 256 ≤ (i 1).val ∧ (i 1).val < win0_3.index _ (1 : Fin 3) * 256 + 256
    rw [o1]; omega
  | ⟨2, _⟩ =>
    show win0_3.index _ (2 : Fin 3) * 20 ≤ (i 2).val ∧ (i 2).val < win0_3.index _ (2 : Fin 3) * 20 + 20
    rw [o2]; omega

/-- THE RESULT ARRAY after the run is the specification of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 (spec m c) (fun t _ => flushed_eq m c t) (cover)

/-- The run, read: the result at the specification of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefRead.lean ====
/-
  The reference, read at coordinates, is `perspRef` of each batch entry.

  The reference normalises the rows of both inputs by a quotient by the root of the clamped sum of squares, takes
  `alpha` over all batch entries at once, normalises its columns the same way, takes `hmean`, and then, for every entry,
  row and weight row, forms the two weighted rows `a t · w p` and `hmean t · w p`, normalises each, and sums their
  products over the features. Each stage is read here at an index written by its coordinates; every quotient by a root
  of a clamped value is the product with the inverse root (`div_sqrt_clamp`), and the host sums start from zero.
-/
import proofs.«119424_j69939247448444_2_alg».proof.Proof.Gen.ReferenceIdeal.Read
import proofs.«119424_j69939247448444_2_alg».proof.Proof.Spec

noncomputable section

namespace Cert.Attn.Ref

open Idealize.ShloMosaic Idealize.ShloMosaic.ValueIdx Cert.ReferenceIdeal Cert.ReferenceIdeal.Gen Cert.ReferenceIdeal.Read Cert.Attn

/-- An input array's contents at the ideal values. -/
abbrev Arr3 : Type := (⟨S32x256x512, .f32⟩ : BufTy).Contents (Elt Ideal)
/-- The weights' contents at the ideal values. -/
abbrev ArrW : Type := (⟨S20x512, .f32⟩ : BufTy).Contents (Elt Ideal)

/-! ## Indices: the generated index maps at coordinates -/

theorem ix_v1 (β : Fin 32) (t : Fin 256) (d k : Fin 512) :
    idx_main_v1 (idx_main_v2 (idx_main_v6 (ix3 β t d))) k = ix3 β t k :=
  funext fun a => by match a with | ⟨0, _⟩ => rfl | ⟨1, _⟩ => rfl | ⟨2, _⟩ => rfl
theorem ix_v9 (β : Fin 32) (t : Fin 256) (d k : Fin 512) :
    idx_main_v9 (idx_main_v10 (idx_main_v14 (ix3 β t d))) k = ix3 β t k :=
  funext fun a => by match a with | ⟨0, _⟩ => rfl | ⟨1, _⟩ => rfl | ⟨2, _⟩ => rfl
theorem ix_l16 (β : Fin 32) (d e : Fin 512) (k : Fin 256) : lidx_main_v16 (ix3 β d e) k = ix3 β k d :=
  funext fun a => by match a with | ⟨0, _⟩ => rfl | ⟨1, _⟩ => rfl | ⟨2, _⟩ => rfl
theorem ix_r16 (β : Fin 32) (d e : Fin 512) (k : Fin 256) : ridx_main_v16 (ix3 β d e) k = ix3 β k e :=
  funext fun a => by match a with | ⟨0, _⟩ => rfl | ⟨1, _⟩ => rfl | ⟨2, _⟩ => rfl
theorem ix_v18 (β : Fin 32) (d e k : Fin 512) :
    idx_main_v18 (idx_main_v19 (idx_main_v23 (ix3 β d e))) k = ix3 β k e :=
  funext fun a => by match a with | ⟨0, _⟩ => rfl | ⟨1, _⟩ => rfl | ⟨2, _⟩ => rfl
theorem ix_l25 (β : Fin 32) (t : Fin 256) (e k : Fin 512) : lidx_main_v25 (ix3 β t e) k = ix3 β t k :=
  funext fun a => by match a with | ⟨0, _⟩ => rfl | ⟨1, _⟩ => rfl | ⟨2, _⟩ => rfl
theorem ix_r25 (β : Fin 32) (t : Fin 256) (e k : Fin 512) : ridx_main_v25 (ix3 β t e) k = ix3 β k e :=
  funext fun a => by match a with | ⟨0, _⟩ => rfl | ⟨1, _⟩ => rfl | ⟨2, _⟩ => rfl
theorem ix_v26 (β : Fin 32) (t : Fin 256) (p : Fin 20) (d : Fin 512) :
    idx_main_v26 (idx_main_v28 (ix4 β t p d)) = ix3 β t d :=
  funext fun a => by match a with | ⟨0, _⟩ => rfl | ⟨1, _⟩ => rfl | ⟨2, _⟩ => rfl
theorem ix_v27 (β : Fin 32) (t : Fin 256) (p : Fin 20) (d : Fin 512) :
    idx_main_v27 (idx_main_v29 (ix4 β t p d)) = ix2 p d :=
  funext fun a => by match a with | ⟨0, _⟩ => rfl | ⟨1, _⟩ => rfl
theorem ix_v32 (β : Fin 32) (t : Fin 256) (p : Fin 20) (d k : Fin 512) :
    idx_main_v32 (idx_main_v33 (idx_main_v37 (ix4 β t p d))) k = ix4 β t p k :=
  funext fun a => by match a with | ⟨0, _⟩ => rfl | ⟨1, _⟩ => rfl | ⟨2, _⟩ => rfl | ⟨3, _⟩ => rfl
theorem ix_v39 (β : Fin 32) (t : Fin 256) (p : Fin 20) (d : Fin 512) :
    idx_main_v39 (idx_main_v41 (ix4 β t p d)) = ix3 β t d :=
  funext fun a => by match a with | ⟨0, _⟩ => rfl | ⟨1, _⟩ => rfl | ⟨2, _⟩ => rfl
theorem ix_v40 (β : Fin 32) (t : Fin 256) (p : Fin 20) (d : Fin 512) :
    idx_main_v40 (idx_main_v42 (ix4 β t p d)) = ix2 p d :=
  funext fun a => by match a with | ⟨0, _⟩ => rfl | ⟨1, _⟩ => rfl
theorem ix_v45 (β : Fin 32) (t : Fin 256) (p : Fin 20) (d k : Fin 512) :
    idx_main_v45 (idx_main_v46 (idx_main_v50 (ix4 β t p d))) k = ix4 β t p k :=
  funext fun a => by match a with | ⟨0, _⟩ => rfl | ⟨1, _⟩ => rfl | ⟨2, _⟩ => rfl | ⟨3, _⟩ => rfl
theorem ix_v53 (β : Fin 32) (t : Fin 256) (p : Fin 20) (k : Fin 512) : idx_main_v53 (ix3 β t p) k = ix4 β t p k :=
  funext fun a => by match a with | ⟨0, _⟩ => rfl | ⟨1, _⟩ => rfl | ⟨2, _⟩ => rfl | ⟨3, _⟩ => rfl

/-! ## The rows normalised -/

theorem rown0_at (x0 : Arr3) (β : Fin 32) (t : Fin 256) (d : Fin 512) :
    val_main_v7 (F := Ideal) x0 (ix3 β t d) = rown (entA x0 β) t d := by
  rw [val_main_v7_apply, val_main_v6_apply, val_main_v5_apply, val_main_v4_apply, val_main_v2_apply, val_main_v3_apply,
    val_main_v1_apply]
  simp only [ix_v1]
  show Ideal.div (x0 (ix3 β t d)) (Ideal.sqrt (max (Ideal.ofBits .f32 0x00000000#32
    + ∑ k : Fin 512, x0 (ix3 β t k) * x0 (ix3 β t k)) eps)) = _
  rw [Ideal.ofBits_zero_f32, zero_add, div_sqrt_clamp]
  rfl

theorem rown1_at (x1 : Arr3) (β : Fin 32) (t : Fin 256) (d : Fin 512) :
    val_main_v15 (F := Ideal) x1 (ix3 β t d) = rown (entA x1 β) t d := by
  rw [val_main_v15_apply, val_main_v14_apply, val_main_v13_apply, val_main_v12_apply, val_main_v10_apply, val_main_v11_apply,
    val_main_v9_apply]
  simp only [ix_v9]
  show Ideal.div (x1 (ix3 β t d)) (Ideal.sqrt (max (Ideal.ofBits .f32 0x00000000#32
    + ∑ k : Fin 512, x1 (ix3 β t k) * x1 (ix3 β t k)) eps)) = _
  rw [Ideal.ofBits_zero_f32, zero_add, div_sqrt_clamp]
  rfl

/-! ## `alpha`, its columns normalised, and `hmean` -/

theorem alpha_at (x0 x1 : Arr3) (β : Fin 32) (d e : Fin 512) :
    val_main_v16 (F := Ideal) x0 x1 (ix3 β d e) = alpha (entA x0 β) (entA x1 β) d e := by
  rw [val_main_v16_apply]
  refine Finset.sum_congr rfl fun k _ => ?_
  rw [ix_l16, ix_r16, rown1_at, rown0_at]

theorem alphan_at (x0 x1 : Arr3) (β : Fin 32) (d e : Fin 512) :
    val_main_v24 (F := Ideal) x0 x1 (ix3 β d e) = alphan (entA x0 β) (entA x1 β) d e := by
  rw [val_main_v24_apply, val_main_v23_apply, val_main_v22_apply, val_main_v21_apply, val_main_v19_apply, val_main_v20_apply,
    val_main_v18_apply]
  simp only [ix_v18, val_main_v17_apply, alpha_at]
  show Ideal.div (alpha (entA x0 β) (entA x1 β) d e) (Ideal.sqrt (max (Ideal.ofBits .f32 0x00000000#32
    + ∑ k : Fin 512, alpha (entA x0 β) (entA x1 β) k e * alpha (entA x0 β) (entA x1 β) k e) eps)) = _
  rw [Ideal.ofBits_zero_f32, zero_add, div_sqrt_clamp]
  rfl

theorem hmean_at (x0 x1 : Arr3) (β : Fin 32) (t : Fin 256) (e : Fin 512) :
    val_main_v25 (F := Ideal) x0 x1 (ix3 β t e) = hmean (entA x0 β) (entA x1 β) t e := by
  rw [val_main_v25_apply]
  refine Finset.sum_congr rfl fun k _ => ?_
  rw [ix_l25, ix_r25, rown1_at, alphan_at]

/-! ## The two weighted rows, normalised -/

theorem aw_raw_at (x0 : Arr3) (x2 : ArrW) (β : Fin 32) (t : Fin 256) (p : Fin 20) (d : Fin 512) :
    val_main_v30 (F := Ideal) x0 x2 (ix4 β t p d) = entA x0 β t d * wmat x2 p d := by
  rw [val_main_v30_apply, val_main_v28_apply, val_main_v26_apply, val_main_v29_apply, val_main_v27_apply, ix_v26, ix_v27]
  rfl

theorem aw_at (x0 : Arr3) (x2 : ArrW) (β : Fin 32) (t : Fin 256) (p : Fin 20) (d : Fin 512) :
    val_main_v38 (F := Ideal) x0 x2 (ix4 β t p d)
      = (entA x0 β t d * wmat x2 p d)
        * rs (∑ k : Fin 512, (entA x0 β t k * wmat x2 p k) * (entA x0 β t k * wmat x2 p k)) := by
  rw [val_main_v38_apply, val_main_v37_apply, val_main_v36_apply, val_main_v35_apply, val_main_v33_apply, val_main_v34_apply,
    val_main_v32_apply]
  simp only [ix_v32, val_main_v31_apply, aw_raw_at]
  show Ideal.div (entA x0 β t d * wmat x2 p d) (Ideal.sqrt (max (Ideal.ofBits .f32 0x00000000#32
    + ∑ k : Fin 512, (entA x0 β t k * wmat x2 p k) * (entA x0 β t k * wmat x2 p k)) eps)) = _
  rw [Ideal.ofBits_zero_f32, zero_add, div_sqrt_clamp]

theorem hw_raw_at (x0 x1 : Arr3) (x2 : ArrW) (β : Fin 32) (t : Fin 256) (p : Fin 20) (d : Fin 512) :
    val_main_v43 (F := Ideal) x0 x1 x2 (ix4 β t p d) = hmean (entA x0 β) (entA x1 β) t d * wmat x2 p d := by
  rw [val_main_v43_apply, val_main_v41_apply, val_main_v39_apply, val_main_v42_apply, val_main_v40_apply, ix_v39, ix_v40,
    hmean_at]
  rfl

theorem hw_at (x0 x1 : Arr3) (x2 : ArrW) (β : Fin 32) (t : Fin 256) (p : Fin 20) (d : Fin 512) :
    val_main_v51 (F := Ideal) x0 x1 x2 (ix4 β t p d)
      = (hmean (entA x0 β) (entA x1 β) t d * wmat x2 p d)
        * rs (∑ k : Fin 512, (hmean (entA x0 β) (entA x1 β) t k * wmat x2 p k)
            * (hmean (entA x0 β) (entA x1 β) t k * wmat x2 p k)) := by
  rw [val_main_v51_apply, val_main_v50_apply, val_main_v49_apply, val_main_v48_apply, val_main_v46_apply, val_main_v47_apply,
    val_main_v45_apply]
  simp only [ix_v45, val_main_v44_apply, hw_raw_at]
  show Ideal.div (hmean (entA x0 β) (entA x1 β) t d * wmat x2 p d) (Ideal.sqrt (max (Ideal.ofBits .f32 0x00000000#32
    + ∑ k : Fin 512, (hmean (entA x0 β) (entA x1 β) t k * wmat x2 p k)
        * (hmean (entA x0 β) (entA x1 β) t k * wmat x2 p k)) eps)) = _
  rw [Ideal.ofBits_zero_f32, zero_add, div_sqrt_clamp]

/-! ## The result -/

/-- The reference's result at entry `β`, row `t`, weight row `p`. -/
theorem out_at (x0 x1 : Arr3) (x2 : ArrW) (β : Fin 32) (t : Fin 256) (p : Fin 20) :
    val_main_v53 (F := Ideal) x0 x1 x2 (ix3 β t p) = perspRef (entA x0 β) (entA x1 β) (wmat x2) t p := by
  rw [val_main_v53_apply]
  simp only [ix_v53, val_main_v52_apply, aw_at, hw_at]
  show Ideal.ofBits .f32 0x00000000#32 + _ = _
  rw [Ideal.ofBits_zero_f32, zero_add]
  rfl

/-- The reference's result array is the specification. -/
theorem out_eq (x0 x1 : Arr3) (x2 : ArrW) : val_main_v53 (F := Ideal) x0 x1 x2 = G x0 x1 x2 := by
  funext i
  obtain ⟨β, t, p, rfl⟩ : ∃ (β : Fin 32) (t : Fin 256) (p : Fin 20), i = ix3 β t p := ⟨i 0, i 1, i 2, eq_ix3 i⟩
  rw [out_at, perspRef_eq, G_at]

end Cert.Attn.Ref

end
-- ==== Proof.lean ====
/-
  The kernel and its reference compute, for each of 32 batch entries, the clamped cosine between `a t · w p` and
  `hmean t · w p` over the features, for every row `t` and weight row `p`, where `hmean` is built from the two
  row-normalised inputs (`Proof/Spec.lean`).

  The two differ in three ways, none of which changes a value on the extended reals. A quotient by the root of a sum of
  squares clamped below by a positive constant is the product with the inverse root (`Proof/Clamp.lean`), for every
  numerator. The kernel takes the cosine from three contractions against the squared weights and the reference from the
  two normalised weighted rows; the products regroup by commutativity and associativity, and the two inverse roots,
  being nonnegative reals, distribute over the sum (`Proof/Spec.lean`, `cosN_eq_cos3`). And the kernel works on blocks
  of two entries, stacking its three contractions into one product, while the reference works on whole arrays
  (`Proof/Block.lean`, `Proof/Whole.lean` against `Proof/RefRead.lean`). No step uses that the inputs are finite.

  The kernel's result array after its run is `G` of its arguments (`Whole.run`, over the generated frame run and its
  blockwise value leg), the reference's is `G` of its own (`Ref.out_eq`, over the generated run and its stages read at
  an index), and the arguments agree. The idealisation pass rewrote nothing, so `preserves` is trivial; the two kernel
  frames are the generated ones and the reference's frame is its run with the results dropped.
-/
import proofs.«119424_j69939247448444_2_alg».proof.Defs
import proofs.«119424_j69939247448444_2_alg».proof.Proof.Gen.Kernel
import proofs.«119424_j69939247448444_2_alg».proof.Proof.Gen.Kernel.Skeleton
import proofs.«119424_j69939247448444_2_alg».proof.Proof.Gen.Kernel.Launch
import proofs.«119424_j69939247448444_2_alg».proof.Proof.Gen.Kernel.Points
import proofs.«119424_j69939247448444_2_alg».proof.Proof.Gen.Kernel.Frame
import proofs.«119424_j69939247448444_2_alg».proof.Proof.Gen.KernelIdeal
import proofs.«119424_j69939247448444_2_alg».proof.Proof.Gen.KernelIdeal.Skeleton
import proofs.«119424_j69939247448444_2_alg».proof.Proof.Gen.KernelIdeal.Launch
import proofs.«119424_j69939247448444_2_alg».proof.Proof.Gen.KernelIdeal.Points
import proofs.«119424_j69939247448444_2_alg».proof.Proof.Gen.KernelIdeal.Frame
import proofs.«119424_j69939247448444_2_alg».proof.Proof.Gen.ReferenceIdeal
import proofs.«119424_j69939247448444_2_alg».proof.Proof.Gen.Pre_finite_inputs
import proofs.«119424_j69939247448444_2_alg».proof.Proof.Gen.KernelIdeal.Value
import proofs.«119424_j69939247448444_2_alg».proof.Proof.Gen.ReferenceIdeal.Run
import proofs.«119424_j69939247448444_2_alg».proof.Proof.Gen.ReferenceIdeal.Read
import proofs.«119424_j69939247448444_2_alg».proof.Proof.Whole
import proofs.«119424_j69939247448444_2_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its generated run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with their result array at `G` of the argument arrays, and the arguments agree. -/
theorem algebraic : Cert.algebraic_KernelIdeal_ReferenceIdeal := by
  intro m ρ m' ρ' _ hagree
  refine ⟨fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Attn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c => ⟨(h c).1, (h c).1, (h c).2⟩) (Cert.KernelIdeal.Whole.run m ρ)
  · refine (θ_run Cert.ReferenceIdeal.defs _ _).mono (fun r h c => ?_) (Cert.ReferenceIdeal.Value.run (F := Ideal) m' ρ')
    have e : r.2.mem ((c.tc : Thread Cert.ReferenceIdeal.nD Cert.ReferenceIdeal.τ).loc Cert.ReferenceIdeal.main_v53)
        = Cert.Attn.G (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
      rw [(h c).1, Cert.ReferenceIdeal.Read.val_main_v53_eq, Cert.Attn.Ref.out_eq, (hagree c).1, (hagree c).2.1,
        (hagree c).2.2]
    exact ⟨e, e, (h c).2.2⟩

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
